-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x8x256x512 : Shape := ⟨5, ![16, 4, 8, 256, 512]⟩
abbrev S16x4x8x128x512 : Shape := ⟨5, ![16, 4, 8, 128, 512]⟩
abbrev S16x4x8x256 : Shape := ⟨4, ![16, 4, 8, 256]⟩
abbrev S16x4x8x128 : Shape := ⟨4, ![16, 4, 8, 128]⟩
abbrev S_ : Shape := ⟨0, ![]⟩

class Facts : Prop where
  bcast_S_S16x4x8x256x512 : S_.BroadcastsInDim S16x4x8x256x512 (![] : Fin 0 → Fin S16x4x8x256x512.rank)
  reducesTo_S16x4x8x256x512_S_d0_1_2_3_4 : S16x4x8x256x512.ReducesTo [0, 1, 2, 3, 4] S_
  h_S_ : 0 < S_.numel
  bcast_S_S16x4x8x128x512 : S_.BroadcastsInDim S16x4x8x128x512 (![] : Fin 0 → Fin S16x4x8x128x512.rank)
  reducesTo_S16x4x8x128x512_S_d0_1_2_3_4 : S16x4x8x128x512.ReducesTo [0, 1, 2, 3, 4] S_
  bcast_S_S16x4x8x256 : S_.BroadcastsInDim S16x4x8x256 (![] : Fin 0 → Fin S16x4x8x256.rank)
  reducesTo_S16x4x8x256_S_d0_1_2_3 : S16x4x8x256.ReducesTo [0, 1, 2, 3] S_
  bcast_S_S16x4x8x128 : S_.BroadcastsInDim S16x4x8x128 (![] : Fin 0 → Fin S16x4x8x128.rank)
  reducesTo_S16x4x8x128_S_d0_1_2_3 : S16x4x8x128.ReducesTo [0, 1, 2, 3] S_

variable [Facts]

def fn_part1 {F : FTy → Type} [FloatOps F] (main_v13 : IVec S_ 1) (main_v16 : IVec S16x4x8x128 1) : IVec S_ 1 :=
  let main_c_5 : IVec S_ 1 := constantI S_ 1 1#1
  let main_v17 : IVec S_ 1 := (fun x v => Host.reduce IntOp.andi x v reducesTo_S16x4x8x128_S_d0_1_2_3 h_S_) main_v16 main_c_5
  let main_v18 : IVec S_ 1 := andi main_v13 main_v17
  main_v18

def fn {F : FTy → Type} [FloatOps F] (main_arg0 : FVec F S16x4x8x256x512 .f32) (main_arg1 : FVec F S16x4x8x128x512 .f32) (main_arg2 : FVec F S16x4x8x256 .f32) (main_arg3 : FVec F S16x4x8x128 .f32) : IVec S_ 1 :=
  let main_v0 : FVec F S16x4x8x256x512 .f32 := Host.absf main_arg0
  let main_cst : FVec F S_ .f32 := constant S_ .f32 0x7F800000#32
  let main_v1 : FVec F S16x4x8x256x512 .f32 := broadcastInDim S16x4x8x256x512 ![] bcast_S_S16x4x8x256x512 main_cst
  let main_v2 : IVec S16x4x8x256x512 1 := cmpf .olt main_v0 main_v1
  let main_c : IVec S_ 1 := constantI S_ 1 1#1
  let main_v3 : IVec S_ 1 := (fun x v => Host.reduce IntOp.andi x v reducesTo_S16x4x8x256x512_S_d0_1_2_3_4 h_S_) main_v2 main_c
  let main_v4 : FVec F S16x4x8x128x512 .f32 := Host.absf main_arg1
  let main_cst_0 : FVec F S_ .f32 := constant S_ .f32 0x7F800000#32
  let main_v5 : FVec F S16x4x8x128x512 .f32 := broadcastInDim S16x4x8x128x512 ![] bcast_S_S16x4x8x128x512 main_cst_0
  let main_v6 : IVec S16x4x8x128x512 1 := cmpf .olt main_v4 main_v5
  let main_c_1 : IVec S_ 1 := constantI S_ 1 1#1
  let main_v7 : IVec S_ 1 := (fun x v => Host.reduce IntOp.andi x v reducesTo_S16x4x8x128x512_S_d0_1_2_3_4 h_S_) main_v6 main_c_1
  let main_v8 : IVec S_ 1 := andi main_v3 main_v7
  let main_v9 : FVec F S16x4x8x256 .f32 := Host.absf main_arg2
  let main_cst_2 : FVec F S_ .f32 := constant S_ .f32 0x7F800000#32
  let main_v10 : FVec F S16x4x8x256 .f32 := broadcastInDim S16x4x8x256 ![] bcast_S_S16x4x8x256 main_cst_2
  let main_v11 : IVec S16x4x8x256 1 := cmpf .olt main_v9 main_v10
  let main_c_3 : IVec S_ 1 := constantI S_ 1 1#1
  let main_v12 : IVec S_ 1 := (fun x v => Host.reduce IntOp.andi x v reducesTo_S16x4x8x256_S_d0_1_2_3 h_S_) main_v11 main_c_3
  let main_v13 : IVec S_ 1 := andi main_v8 main_v12
  let main_v14 : FVec F S16x4x8x128 .f32 := Host.absf main_arg3
  let main_cst_4 : FVec F S_ .f32 := constant S_ .f32 0x7F800000#32
  let main_v15 : FVec F S16x4x8x128 .f32 := broadcastInDim S16x4x8x128 ![] bcast_S_S16x4x8x128 main_cst_4
  let main_v16 : IVec S16x4x8x128 1 := cmpf .olt main_v14 main_v15
  fn_part1 (F := F) main_v13 main_v16
-- ==== Kernel.lean ====
abbrev S16x4x8x256x512 : Shape := ⟨5, ![16, 4, 8, 256, 512]⟩
abbrev S16x4x8x128x512 : Shape := ⟨5, ![16, 4, 8, 128, 512]⟩
abbrev S16x4x8x256 : Shape := ⟨4, ![16, 4, 8, 256]⟩
abbrev S16x4x8x128 : Shape := ⟨4, ![16, 4, 8, 128]⟩
abbrev S512x256x512 : Shape := ⟨3, ![512, 256, 512]⟩
abbrev S512x128x512 : Shape := ⟨3, ![512, 128, 512]⟩
abbrev S512x256x1 : Shape := ⟨3, ![512, 256, 1]⟩
abbrev S512x1x128 : Shape := ⟨3, ![512, 1, 128]⟩
abbrev S512x256x128 : Shape := ⟨3, ![512, 256, 128]⟩
abbrev S512x128x256 : Shape := ⟨3, ![512, 128, 256]⟩
abbrev S4x256x512 : Shape := ⟨3, ![4, 256, 512]⟩
abbrev S4x128x512 : Shape := ⟨3, ![4, 128, 512]⟩
abbrev S4x256x1 : Shape := ⟨3, ![4, 256, 1]⟩
abbrev S4x1x128 : Shape := ⟨3, ![4, 1, 128]⟩
abbrev S4x256x128 : Shape := ⟨3, ![4, 256, 128]⟩
abbrev S4x128x256 : Shape := ⟨3, ![4, 128, 256]⟩
abbrev S4x256 : Shape := ⟨2, ![4, 256]⟩
abbrev S4x128 : Shape := ⟨2, ![4, 128]⟩
abbrev S4x128x1 : Shape := ⟨3, ![4, 128, 1]⟩
abbrev S16x4x8x256x128 : Shape := ⟨5, ![16, 4, 8, 256, 128]⟩
abbrev S16x4x8x128x256 : Shape := ⟨5, ![16, 4, 8, 128, 256]⟩

abbrev nBuf : Space → Nat
  | .hbm => 16
  | .vmem => 16
  | .smem => 0
  | _ => 0

abbrev bufTy : (tb : Table) → Fin (tcTables nBuf tb) → BufTy
  | .hbm, ⟨0, _⟩ => ⟨S16x4x8x256x512, .f32⟩
  | .hbm, ⟨1, _⟩ => ⟨S16x4x8x128x512, .f32⟩
  | .hbm, ⟨2, _⟩ => ⟨S16x4x8x256, .f32⟩
  | .hbm, ⟨3, _⟩ => ⟨S16x4x8x128, .f32⟩
  | .hbm, ⟨4, _⟩ => ⟨S512x256x512, .f32⟩
  | .hbm, ⟨5, _⟩ => ⟨S512x128x512, .f32⟩
  | .hbm, ⟨6, _⟩ => ⟨S512x256x1, .f32⟩
  | .hbm, ⟨7, _⟩ => ⟨S512x1x128, .f32⟩
  | .hbm, ⟨8, _⟩ => ⟨S512x256x512, .f32⟩
  | .hbm, ⟨9, _⟩ => ⟨S512x128x512, .f32⟩
  | .hbm, ⟨10, _⟩ => ⟨S512x256x128, .f32⟩
  | .hbm, ⟨11, _⟩ => ⟨S512x128x256, .f32⟩
  | .hbm, ⟨12, _⟩ => ⟨S16x4x8x256x512, .f32⟩
  | .hbm, ⟨13, _⟩ => ⟨S16x4x8x128x512, .f32⟩
  | .hbm, ⟨14, _⟩ => ⟨S16x4x8x256x128, .f32⟩
  | .hbm, ⟨15, _⟩ => ⟨S16x4x8x128x256, .f32⟩
  | .local _ .vmem, ⟨0, _⟩ => ⟨S4x256x512, .f32⟩
  | .local _ .vmem, ⟨1, _⟩ => ⟨S4x256x512, .f32⟩
  | .local _ .vmem, ⟨2, _⟩ => ⟨S4x128x512, .f32⟩
  | .local _ .vmem, ⟨3, _⟩ => ⟨S4x128x512, .f32⟩
  | .local _ .vmem, ⟨4, _⟩ => ⟨S4x256x1, .f32⟩
  | .local _ .vmem, ⟨5, _⟩ => ⟨S4x256x1, .f32⟩
  | .local _ .vmem, ⟨6, _⟩ => ⟨S4x1x128, .f32⟩
  | .local _ .vmem, ⟨7, _⟩ => ⟨S4x1x128, .f32⟩
  | .local _ .vmem, ⟨8, _⟩ => ⟨S4x256x512, .f32⟩
  | .local _ .vmem, ⟨9, _⟩ => ⟨S4x256x512, .f32⟩
  | .local _ .vmem, ⟨10, _⟩ => ⟨S4x128x512, .f32⟩
  | .local _ .vmem, ⟨11, _⟩ => ⟨S4x128x512, .f32⟩
  | .local _ .vmem, ⟨12, _⟩ => ⟨S4x256x128, .f32⟩
  | .local _ .vmem, ⟨13, _⟩ => ⟨S4x256x128, .f32⟩
  | .local _ .vmem, ⟨14, _⟩ => ⟨S4x128x256, .f32⟩
  | .local _ .vmem, ⟨15, _⟩ => ⟨S4x128x256, .f32⟩
  | _, _ => ⟨S16x4x8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x4x8x256x512_S512x256x512 : S16x4x8x256x512.ShapeCasts S512x256x512
  shapeCasts_S16x4x8x128x512_S512x128x512 : S16x4x8x128x512.ShapeCasts S512x128x512
  shapeCasts_S16x4x8x256_S512x256x1 : S16x4x8x256.ShapeCasts S512x256x1
  shapeCasts_S16x4x8x128_S512x1x128 : S16x4x8x128.ShapeCasts S512x1x128
  inb_S4x256x512_S4x256x512_0_0_0 : ∀ a, (![0, 0, 0] : Fin 3 → Nat) a + S4x256x512.size a ≤ S4x256x512.size a
  h_S4x256x512 : 0 < S4x256x512.numel
  shapeCasts_S4x256x512_S4x256x512 : S4x256x512.ShapeCasts S4x256x512
  inb_S4x128x512_S4x128x512_0_0_0 : ∀ a, (![0, 0, 0] : Fin 3 → Nat) a + S4x128x512.size a ≤ S4x128x512.size a
  h_S4x128x512 : 0 < S4x128x512.numel
  shapeCasts_S4x128x512_S4x128x512 : S4x128x512.ShapeCasts S4x128x512
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x1x128_S4x1x128_0_0_0 : ∀ a, (![0, 0, 0] : Fin 3 → Nat) a + S4x1x128.size a ≤ S4x1x128.size a
  h_S4x1x128 : 0 < S4x1x128.numel
  shapeCasts_S4x1x128_S4x1x128 : S4x1x128.ShapeCasts S4x1x128
  reduces_S4x256x512_S4x256 : S4x256x512.Reduces [2] S4x256
  shapeCasts_S4x256_S4x256x1 : S4x256.ShapeCasts S4x256x1
  broadcasts_S4x256x1_S4x256x512 : S4x256x1.Broadcasts S4x256x512
  reduces_S4x128x512_S4x128 : S4x128x512.Reduces [2] S4x128
  shapeCasts_S4x128_S4x128x1 : S4x128.ShapeCasts S4x128x1
  broadcasts_S4x128x1_S4x128x512 : S4x128x1.Broadcasts S4x128x512
  bitsLt_bf16_f32 : FTy.bits .bf16 < FTy.bits .f32
  broadcasts_S4x256x1_S4x256x128 : S4x256x1.Broadcasts S4x256x128
  broadcasts_S4x1x128_S4x256x128 : S4x1x128.Broadcasts S4x256x128
  reduces_S4x256x128_S4x256 : S4x256x128.Reduces [2] S4x256
  reduces_S4x256x128_S4x128 : S4x256x128.Reduces [1] S4x128
  shapeCasts_S4x128_S4x1x128 : S4x128.ShapeCasts S4x1x128
  transposes_S4x256x128_p0_2_1_S4x128x256 : S4x256x128.Transposes [0, 2, 1] S4x128x256
  inb_S4x256x128_S4x256x128_0_0_0 : ∀ a, (![0, 0, 0] : Fin 3 → Nat) a + S4x256x128.size a ≤ S4x256x128.size a
  h_S4x256x128 : 0 < S4x256x128.numel
  inb_S4x128x256_S4x128x256_0_0_0 : ∀ a, (![0, 0, 0] : Fin 3 → Nat) a + S4x128x256.size a ≤ S4x128x256.size a
  h_S4x128x256 : 0 < S4x128x256.numel
  shapeCasts_S512x256x512_S16x4x8x256x512 : S512x256x512.ShapeCasts S16x4x8x256x512
  shapeCasts_S512x128x512_S16x4x8x128x512 : S512x128x512.ShapeCasts S16x4x8x128x512
  shapeCasts_S512x256x128_S16x4x8x256x128 : S512x256x128.ShapeCasts S16x4x8x256x128
  shapeCasts_S512x128x256_S16x4x8x128x256 : S512x128x256.ShapeCasts S16x4x8x128x256
  dot_S4x256x512_S4x128x512_S4x256x128_2_2_1_1_0_0_wf : DotDims.WF S4x256x512 S4x128x512 S4x256x128 [2] [2] [1] [1] [0] [0]
  dot_S4x256x128_S4x128x512_S4x256x512_2_1_1_2_0_0_wf : DotDims.WF S4x256x128 S4x128x512 S4x256x512 [2] [1] [1] [2] [0] [0]
  dot_S4x128x256_S4x256x512_S4x128x512_2_1_1_2_0_0_wf : DotDims.WF S4x128x256 S4x256x512 S4x128x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x512.size a ≤ S512x256x512.size a
  hwx0_0 : ∀ i : grid0.Coords, EltTy.bits .f32 = 32 ∨ (Rect.block (s := S512x256x512) S4x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x512.size a ≤ S512x128x512.size a
  hwx0_1 : ∀ i : grid0.Coords, EltTy.bits .f32 = 32 ∨ (Rect.block (s := S512x128x512) S4x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x1.size a ≤ S512x256x1.size a
  hwx0_2 : ∀ i : grid0.Coords, EltTy.bits .f32 = 32 ∨ (Rect.block (s := S512x256x1) S4x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x128.size a ≤ S512x1x128.size a
  hwx0_3 : ∀ i : grid0.Coords, EltTy.bits .f32 = 32 ∨ (Rect.block (s := S512x1x128) S4x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x512.size a ≤ S512x256x512.size a
  hwx0_4 : ∀ i : grid0.Coords, EltTy.bits .f32 = 32 ∨ (Rect.block (s := S512x256x512) S4x256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x128x512.size a ≤ S512x128x512.size a
  hwx0_5 : ∀ i : grid0.Coords, EltTy.bits .f32 = 32 ∨ (Rect.block (s := S512x128x512) S4x128x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x256x128.size a ≤ S512x256x128.size a
  hwx0_6 : ∀ i : grid0.Coords, EltTy.bits .f32 = 32 ∨ (Rect.block (s := S512x256x128) S4x256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x128x256.size a ≤ S512x128x256.size a
  hwx0_7 : ∀ i : grid0.Coords, EltTy.bits .f32 = 32 ∨ (Rect.block (s := S512x128x256) S4x128x256.size (cc0_transform_7 i) (hinb0_7 i)).WholeWords (EltTy.packing .f32)

variable [Facts₀]

def dot_S4x256x512_S4x128x512_S4x256x128_2_2_1_1_0_0 : DotDims S4x256x512 S4x128x512 S4x256x128 where
  lhsContracting := [2]
  rhsContracting := [2]
  lhsNonContracting := [1]
  rhsNonContracting := [1]
  lhsBatch := [0]
  rhsBatch := [0]
  wf := dot_S4x256x512_S4x128x512_S4x256x128_2_2_1_1_0_0_wf
def dot_S4x256x128_S4x128x512_S4x256x512_2_1_1_2_0_0 : DotDims S4x256x128 S4x128x512 S4x256x512 where
  lhsContracting := [2]
  rhsContracting := [1]
  lhsNonContracting := [1]
  rhsNonContracting := [2]
  lhsBatch := [0]
  rhsBatch := [0]
  wf := dot_S4x256x128_S4x128x512_S4x256x512_2_1_1_2_0_0_wf
def dot_S4x128x256_S4x256x512_S4x128x512_2_1_1_2_0_0 : DotDims S4x128x256 S4x256x512 S4x128x512 where
  lhsContracting := [2]
  rhsContracting := [1]
  lhsNonContracting := [1]
  rhsNonContracting := [2]
  lhsBatch := [0]
  rhsBatch := [0]
  wf := dot_S4x128x256_S4x256x512_S4x128x512_2_1_1_2_0_0_wf

abbrev win0_0 : Pipeline.Window sig grid0 :=
  Pipeline.Window.ofSpec (Memref.whole main_v0) S4x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S4x256x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S4x128x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S4x256x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S4x128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x4x8x256x512 : Shape := ⟨5, ![16, 4, 8, 256, 512]⟩
abbrev S16x4x8x128x512 : Shape := ⟨5, ![16, 4, 8, 128, 512]⟩
abbrev S16x4x8x256 : Shape := ⟨4, ![16, 4, 8, 256]⟩
abbrev S16x4x8x128 : Shape := ⟨4, ![16, 4, 8, 128]⟩
abbrev S_ : Shape := ⟨0, ![]⟩
abbrev S16x4x8x256x1 : Shape := ⟨5, ![16, 4, 8, 256, 1]⟩
abbrev S16x4x8x128x1 : Shape := ⟨5, ![16, 4, 8, 128, 1]⟩
abbrev S16x4x8x1x128 : Shape := ⟨5, ![16, 4, 8, 1, 128]⟩
abbrev S16x4x8x256x128 : Shape := ⟨5, ![16, 4, 8, 256, 128]⟩
abbrev S16x4x8x128x256 : Shape := ⟨5, ![16, 4, 8, 128, 256]⟩

abbrev nBuf : Space → Nat
  | .hbm => 76
  | .vmem => 0
  | .smem => 0
  | _ => 0

abbrev bufTy : (tb : Table) → Fin (tcTables nBuf tb) → BufTy
  | .hbm, ⟨0, _⟩ => ⟨S16x4x8x256x512, .f32⟩
  | .hbm, ⟨1, _⟩ => ⟨S16x4x8x128x512, .f32⟩
  | .hbm, ⟨2, _⟩ => ⟨S16x4x8x256, .f32⟩
  | .hbm, ⟨3, _⟩ => ⟨S16x4x8x128, .f32⟩
  | .hbm, ⟨4, _⟩ => ⟨S16x4x8x256x512, .f32⟩
  | .hbm, ⟨5, _⟩ => ⟨S_, .f32⟩
  | .hbm, ⟨6, _⟩ => ⟨S16x4x8x256, .f32⟩
  | .hbm, ⟨7, _⟩ => ⟨S16x4x8x256x1, .f32⟩
  | .hbm, ⟨8, _⟩ => ⟨S16x4x8x256x1, .f32⟩
  | .hbm, ⟨9, _⟩ => ⟨S_, .f32⟩
  | .hbm, ⟨10, _⟩ => ⟨S16x4x8x256x1, .f32⟩
  | .hbm, ⟨11, _⟩ => ⟨S16x4x8x256x1, .f32⟩
  | .hbm, ⟨12, _⟩ => ⟨S16x4x8x256x512, .f32⟩
  | .hbm, ⟨13, _⟩ => ⟨S16x4x8x256x512, .f32⟩
  | .hbm, ⟨14, _⟩ => ⟨S16x4x8x128x512, .f32⟩
  | .hbm, ⟨15, _⟩ => ⟨S_, .f32⟩
  | .hbm, ⟨16, _⟩ => ⟨S16x4x8x128, .f32⟩
  | .hbm, ⟨17, _⟩ => ⟨S16x4x8x128x1, .f32⟩
  | .hbm, ⟨18, _⟩ => ⟨S16x4x8x128x1, .f32⟩
  | .hbm, ⟨19, _⟩ => ⟨S_, .f32⟩
  | .hbm, ⟨20, _⟩ => ⟨S16x4x8x128x1, .f32⟩
  | .hbm, ⟨21, _⟩ => ⟨S16x4x8x128x1, .f32⟩
  | .hbm, ⟨22, _⟩ => ⟨S16x4x8x128x512, .f32⟩
  | .hbm, ⟨23, _⟩ => ⟨S16x4x8x128x512, .f32⟩
  | .hbm, ⟨24, _⟩ => ⟨S16x4x8x256x1, .f32⟩
  | .hbm, ⟨25, _⟩ => ⟨S16x4x8x1x128, .f32⟩
  | .hbm, ⟨26, _⟩ => ⟨S16x4x8x256x128, .f32⟩
  | .hbm, ⟨27, _⟩ => ⟨S16x4x8x256x128, .f32⟩
  | .hbm, ⟨28, _⟩ => ⟨S16x4x8x256x128, .f32⟩
  | .hbm, ⟨29, _⟩ => ⟨S16x4x8x256x128, .f32⟩
  | .hbm, ⟨30, _⟩ => ⟨S_, .f32⟩
  | .hbm, ⟨31, _⟩ => ⟨S16x4x8x256x128, .f32⟩
  | .hbm, ⟨32, _⟩ => ⟨S16x4x8x256x128, .f32⟩
  | .hbm, ⟨33, _⟩ => ⟨S_, .f32⟩
  | .hbm, ⟨34, _⟩ => ⟨S16x4x8x256x128, .f32⟩
  | .hbm, ⟨35, _⟩ => ⟨S16x4x8x256x128, .f32⟩
  | .hbm, ⟨36, _⟩ => ⟨S16x4x8x256x128, .f32⟩
  | .hbm, ⟨37, _⟩ => ⟨S_, .f32⟩
  | .hbm, ⟨38, _⟩ => ⟨S16x4x8x256x128, .f32⟩
  | .hbm, ⟨39, _⟩ => ⟨S16x4x8x256x128, .f32⟩
  | .hbm, ⟨40, _⟩ => ⟨S_, .f32⟩
  | .hbm, ⟨41, _⟩ => ⟨S16x4x8x256, .f32⟩
  | .hbm, ⟨42, _⟩ => ⟨S_, .f32⟩
  | .hbm, ⟨43, _⟩ => ⟨S16x4x8x256, .f32⟩
  | .hbm, ⟨44, _⟩ => ⟨S16x4x8x256, .f32⟩
  | .hbm, ⟨45, _⟩ => ⟨S16x4x8x256x1, .f32⟩
  | .hbm, ⟨46, _⟩ => ⟨S16x4x8x256x128, .f32⟩
  | .hbm, ⟨47, _⟩ => ⟨S16x4x8x256x128, .f32⟩
  | .hbm, ⟨48, _⟩ => ⟨S16x4x8x256x128, .f32⟩
  | .hbm, ⟨49, _⟩ => ⟨S_, .f32⟩
  | .hbm, ⟨50, _⟩ => ⟨S16x4x8x256, .f32⟩
  | .hbm, ⟨51, _⟩ => ⟨S16x4x8x256x1, .f32⟩
  | .hbm, ⟨52, _⟩ => ⟨S16x4x8x256x128, .f32⟩
  | .hbm, ⟨53, _⟩ => ⟨S16x4x8x256x128, .f32⟩
  | .hbm, ⟨54, _⟩ => ⟨S16x4x8x256x128, .f32⟩
  | .hbm, ⟨55, _⟩ => ⟨S_, .f32⟩
  | .hbm, ⟨56, _⟩ => ⟨S16x4x8x256x128, .f32⟩
  | .hbm, ⟨57, _⟩ => ⟨S16x4x8x256x128, .f32⟩
  | .hbm, ⟨58, _⟩ => ⟨S_, .f32⟩
  | .hbm, ⟨59, _⟩ => ⟨S16x4x8x128, .f32⟩
  | .hbm, ⟨60, _⟩ => ⟨S_, .f32⟩
  | .hbm, ⟨61, _⟩ => ⟨S16x4x8x128, .f32⟩
  | .hbm, ⟨62, _⟩ => ⟨S16x4x8x128, .f32⟩
  | .hbm, ⟨63, _⟩ => ⟨S16x4x8x1x128, .f32⟩
  | .hbm, ⟨64, _⟩ => ⟨S16x4x8x256x128, .f32⟩
  | .hbm, ⟨65, _⟩ => ⟨S16x4x8x256x128, .f32⟩
  | .hbm, ⟨66, _⟩ => ⟨S16x4x8x256x128, .f32⟩
  | .hbm, ⟨67, _⟩ => ⟨S_, .f32⟩
  | .hbm, ⟨68, _⟩ => ⟨S16x4x8x128, .f32⟩
  | .hbm, ⟨69, _⟩ => ⟨S16x4x8x1x128, .f32⟩
  | .hbm, ⟨70, _⟩ => ⟨S16x4x8x256x128, .f32⟩
  | .hbm, ⟨71, _⟩ => ⟨S16x4x8x256x128, .f32⟩
  | .hbm, ⟨72, _⟩ => ⟨S16x4x8x256x128, .f32⟩
  | .hbm, ⟨73, _⟩ => ⟨S16x4x8x256x512, .f32⟩
  | .hbm, ⟨74, _⟩ => ⟨S16x4x8x128x512, .f32⟩
  | .hbm, ⟨75, _⟩ => ⟨S16x4x8x128x256, .f32⟩
  | _, _ => ⟨S16x4x8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]

class Facts₀ : Prop where
  reducesTo_S16x4x8x256x512_S16x4x8x256_d4 : S16x4x8x256x512.ReducesTo [4] S16x4x8x256
  h_S_ : 0 < S_.numel
  bcast_S16x4x8x256_S16x4x8x256x1_0_1_2_3 : S16x4x8x256.BroadcastsInDim S16x4x8x256x1 (![0, 1, 2, 3] : Fin 4 → Fin S16x4x8x256x1.rank)
  bcast_S_S16x4x8x256x1 : S_.BroadcastsInDim S16x4x8x256x1 (![] : Fin 0 → Fin S16x4x8x256x1.rank)
  bcast_S16x4x8x256x1_S16x4x8x256x512_0_1_2_3_4 : S16x4x8x256x1.BroadcastsInDim S16x4x8x256x512 (![0, 1, 2, 3, 4] : Fin 5 → Fin S16x4x8x256x512.rank)
  reducesTo_S16x4x8x128x512_S16x4x8x128_d4 : S16x4x8x128x512.ReducesTo [4] S16x4x8x128
  bcast_S16x4x8x128_S16x4x8x128x1_0_1_2_3 : S16x4x8x128.BroadcastsInDim S16x4x8x128x1 (![0, 1, 2, 3] : Fin 4 → Fin S16x4x8x128x1.rank)
  bcast_S_S16x4x8x128x1 : S_.BroadcastsInDim S16x4x8x128x1 (![] : Fin 0 → Fin S16x4x8x128x1.rank)
  bcast_S16x4x8x128x1_S16x4x8x128x512_0_1_2_3_4 : S16x4x8x128x1.BroadcastsInDim S16x4x8x128x512 (![0, 1, 2, 3, 4] : Fin 5 → Fin S16x4x8x128x512.rank)
  bcast_S16x4x8x128_S16x4x8x1x128_0_1_2_4 : S16x4x8x128.BroadcastsInDim S16x4x8x1x128 (![0, 1, 2, 4] : Fin 4 → Fin S16x4x8x1x128.rank)
  bcast_S16x4x8x256x1_S16x4x8x256x128_0_1_2_3_4 : S16x4x8x256x1.BroadcastsInDim S16x4x8x256x128 (![0, 1, 2, 3, 4] : Fin 5 → Fin S16x4x8x256x128.rank)
  bcast_S16x4x8x1x128_S16x4x8x256x128_0_1_2_3_4 : S16x4x8x1x128.BroadcastsInDim S16x4x8x256x128 (![0, 1, 2, 3, 4] : Fin 5 → Fin S16x4x8x256x128.rank)
  bcast_S_S16x4x8x256x128 : S_.BroadcastsInDim S16x4x8x256x128 (![] : Fin 0 → Fin S16x4x8x256x128.rank)
  reducesTo_S16x4x8x256x128_S16x4x8x256_d4 : S16x4x8x256x128.ReducesTo [4] S16x4x8x256
  bcast_S_S16x4x8x256 : S_.BroadcastsInDim S16x4x8x256 (![] : Fin 0 → Fin S16x4x8x256.rank)
  reducesTo_S16x4x8x256x128_S16x4x8x128_d3 : S16x4x8x256x128.ReducesTo [3] S16x4x8x128
  bcast_S_S16x4x8x128 : S_.BroadcastsInDim S16x4x8x128 (![] : Fin 0 → Fin S16x4x8x128.rank)
  transposes_S16x4x8x256x128_S16x4x8x128x256_0_1_2_4_3 : S16x4x8x256x128.Transposes [0, 1, 2, 4, 3] S16x4x8x128x256
  dot_S16x4x8x256x512_S16x4x8x128x512_S16x4x8x256x128_4_4_3_3_012_012_wf : DotDims.WF S16x4x8x256x512 S16x4x8x128x512 S16x4x8x256x128 [4] [4] [3] [3] [0, 1, 2] [0, 1, 2]
  dot_S16x4x8x256x128_S16x4x8x128x512_S16x4x8x256x512_4_3_3_4_012_012_wf : DotDims.WF S16x4x8x256x128 S16x4x8x128x512 S16x4x8x256x512 [4] [3] [3] [4] [0, 1, 2] [0, 1, 2]
  dot_S16x4x8x256x128_S16x4x8x256x512_S16x4x8x128x512_3_3_4_4_012_012_wf : DotDims.WF S16x4x8x256x128 S16x4x8x256x512 S16x4x8x128x512 [3] [3] [4] [4] [0, 1, 2] [0, 1, 2]

variable [Facts₀]

def dot_S16x4x8x256x512_S16x4x8x128x512_S16x4x8x256x128_4_4_3_3_012_012 : DotDims S16x4x8x256x512 S16x4x8x128x512 S16x4x8x256x128 where
  lhsContracting := [4]
  rhsContracting := [4]
  lhsNonContracting := [3]
  rhsNonContracting := [3]
  lhsBatch := [0, 1, 2]
  rhsBatch := [0, 1, 2]
  wf := dot_S16x4x8x256x512_S16x4x8x128x512_S16x4x8x256x128_4_4_3_3_012_012_wf
def dot_S16x4x8x256x128_S16x4x8x128x512_S16x4x8x256x512_4_3_3_4_012_012 : DotDims S16x4x8x256x128 S16x4x8x128x512 S16x4x8x256x512 where
  lhsContracting := [4]
  rhsContracting := [3]
  lhsNonContracting := [3]
  rhsNonContracting := [4]
  lhsBatch := [0, 1, 2]
  rhsBatch := [0, 1, 2]
  wf := dot_S16x4x8x256x128_S16x4x8x128x512_S16x4x8x256x512_4_3_3_4_012_012_wf
def dot_S16x4x8x256x128_S16x4x8x256x512_S16x4x8x128x512_3_3_4_4_012_012 : DotDims S16x4x8x256x128 S16x4x8x256x512 S16x4x8x128x512 where
  lhsContracting := [3]
  rhsContracting := [3]
  lhsNonContracting := [4]
  rhsNonContracting := [4]
  lhsBatch := [0, 1, 2]
  rhsBatch := [0, 1, 2]
  wf := dot_S16x4x8x256x128_S16x4x8x256x512_S16x4x8x128x512_3_3_4_4_012_012_wf

class Facts : Prop extends Facts₀ where

variable [Facts]
-- ==== Proof.Attention.lean ====
/-
  The mathematics both programs compute, for ONE attention block.

  A block has a context matrix `C` (256 rows of 512 reals), a query matrix `Q` (128 rows of 512 reals), a context
  mask `cm` (256 reals) and a query mask `qm` (128 reals), all over the extended reals.  Every row is divided by its
  Euclidean norm floored at a small constant; the logit of a (context row, query row) pair is the inner product of the
  two normalised rows, lowered by a large constant where the product of the two masks is not one, times a scale.  The
  logits are normalised by a softmax along the query axis and, separately, along the context axis; each is multiplied
  by the mask product; the first weights the rows of `Q` (one output row per context row), the second the rows of `C`
  (one output row per query row).  The mask product and its transpose are the third and fourth outputs.

  The five constants are kept as the words both programs spell; none is ever evaluated.  A row maximum is a fold of
  `max` from the word for minus infinity, a softmax denominator a plain finite sum: both are insensitive to the
  order in which a program visits the axis.

  Then the same functions laid over the arrays: `H…` over the arrays with the three leading axes flattened into one
  axis of 512 blocks, `G…` over the arrays with the three leading axes 16 × 4 × 8.
-/
import Idealize.ShloMosaic.PureOps.Ideal
import Idealize.ShloMosaic.Lib.ValueIdx

noncomputable section

namespace Cert.Attention

open Idealize.ShloMosaic Idealize.ShloMosaic.ValueIdx

/-- The floor of a row norm. -/
abbrev floorW : EReal := Ideal.ofBits .f32 0x2B8CBCCC#32
/-- The unit the mask product is compared with. -/
abbrev oneW : EReal := Ideal.ofBits .f32 0x3F800000#32
/-- The amount a masked logit is lowered by. -/
abbrev bigW : EReal := Ideal.ofBits .f32 0x501502F9#32
/-- The scale of the logits. -/
abbrev scaleW : EReal := Ideal.ofBits .f32 0x42C80000#32
/-- The word a maximum starts from. -/
abbrev bottomW : EReal := Ideal.ofBits .f32 0xFF800000#32

/-- A row's Euclidean norm, floored. -/
def norm (x : Fin 512 → EReal) : EReal := max (Ideal.sqrt (∑ h, x h * x h)) floorW

/-- A row divided by its floored norm. -/
def unit (x : Fin 512 → EReal) (h : Fin 512) : EReal := Ideal.div (x h) (norm x)

/-- The mask product. -/
def mask (cm : Fin 256 → EReal) (qm : Fin 128 → EReal) (c : Fin 256) (q : Fin 128) : EReal := cm c * qm q

/-- The scaled, masked cosine similarity of context row `c` and query row `q`. -/
def logit (C : Fin 256 → Fin 512 → EReal) (Q : Fin 128 → Fin 512 → EReal) (cm : Fin 256 → EReal) (qm : Fin 128 → EReal)
    (c : Fin 256) (q : Fin 128) : EReal :=
  ((∑ h, unit (C c) h * unit (Q q) h) - bigW * (oneW - mask cm qm c q)) * scaleW

/-- The maximum of finitely many extended reals, folded from the bottom word. -/
def top {n : ℕ} (f : Fin n → EReal) : EReal := (Finset.univ : Finset (Fin n)).fold max bottomW f

/-- The softmax of finitely many extended reals, shifted by their maximum. -/
def soft {n : ℕ} (f : Fin n → EReal) (i : Fin n) : EReal :=
  Ideal.div (Ideal.exp (f i - top f)) (∑ j, Ideal.exp (f j - top f))

/-- The masked softmax along the query axis. -/
def weightC (C : Fin 256 → Fin 512 → EReal) (Q : Fin 128 → Fin 512 → EReal) (cm : Fin 256 → EReal) (qm : Fin 128 → EReal)
    (c : Fin 256) (q : Fin 128) : EReal :=
  soft (fun q' => logit C Q cm qm c q') q * mask cm qm c q

/-- The masked softmax along the context axis. -/
def weightQ (C : Fin 256 → Fin 512 → EReal) (Q : Fin 128 → Fin 512 → EReal) (cm : Fin 256 → EReal) (qm : Fin 128 → EReal)
    (c : Fin 256) (q : Fin 128) : EReal :=
  soft (fun c' => logit C Q cm qm c' q) c * mask cm qm c q

/-- Context rows attending to the query rows. -/
def attendC (C : Fin 256 → Fin 512 → EReal) (Q : Fin 128 → Fin 512 → EReal) (cm : Fin 256 → EReal) (qm : Fin 128 → EReal)
    (c : Fin 256) (h : Fin 512) : EReal :=
  ∑ q, weightC C Q cm qm c q * Q q h

/-- Query rows attending to the context rows. -/
def attendQ (C : Fin 256 → Fin 512 → EReal) (Q : Fin 128 → Fin 512 → EReal) (cm : Fin 256 → EReal) (qm : Fin 128 → EReal)
    (q : Fin 128) (h : Fin 512) : EReal :=
  ∑ c, weightQ C Q cm qm c q * C c h

/-! ## Over arrays of 512 blocks -/

abbrev T512x256x512 : Shape := ⟨3, ![512, 256, 512]⟩
abbrev T512x128x512 : Shape := ⟨3, ![512, 128, 512]⟩
abbrev T512x256x1 : Shape := ⟨3, ![512, 256, 1]⟩
abbrev T512x1x128 : Shape := ⟨3, ![512, 1, 128]⟩
abbrev T512x256x128 : Shape := ⟨3, ![512, 256, 128]⟩
abbrev T512x128x256 : Shape := ⟨3, ![512, 128, 256]⟩

/-- Block `n` of the flattened context array, of the query array, and of the two masks (kept with their unit axis). -/
def blkC (Y : T512x256x512.Idx → EReal) (n : Fin 512) : Fin 256 → Fin 512 → EReal := fun c h => Y (ix3 n c h)
def blkQ (Y : T512x128x512.Idx → EReal) (n : Fin 512) : Fin 128 → Fin 512 → EReal := fun q h => Y (ix3 n q h)
def blkCm (Y : T512x256x1.Idx → EReal) (n : Fin 512) : Fin 256 → EReal := fun c => Y (ix3 n c (0 : Fin 1))
def blkQm (Y : T512x1x128.Idx → EReal) (n : Fin 512) : Fin 128 → EReal := fun q => Y (ix3 n (0 : Fin 1) q)

def HattendC (Y0 : T512x256x512.Idx → EReal) (Y1 : T512x128x512.Idx → EReal) (Y2 : T512x256x1.Idx → EReal)
    (Y3 : T512x1x128.Idx → EReal) : T512x256x512.Idx → EReal :=
  fun i => attendC (blkC Y0 (i 0)) (blkQ Y1 (i 0)) (blkCm Y2 (i 0)) (blkQm Y3 (i 0)) (i 1) (i 2)
def HattendQ (Y0 : T512x256x512.Idx → EReal) (Y1 : T512x128x512.Idx → EReal) (Y2 : T512x256x1.Idx → EReal)
    (Y3 : T512x1x128.Idx → EReal) : T512x128x512.Idx → EReal :=
  fun i => attendQ (blkC Y0 (i 0)) (blkQ Y1 (i 0)) (blkCm Y2 (i 0)) (blkQm Y3 (i 0)) (i 1) (i 2)
def Hmask (Y2 : T512x256x1.Idx → EReal) (Y3 : T512x1x128.Idx → EReal) : T512x256x128.Idx → EReal :=
  fun i => mask (blkCm Y2 (i 0)) (blkQm Y3 (i 0)) (i 1) (i 2)
def HmaskT (Y2 : T512x256x1.Idx → EReal) (Y3 : T512x1x128.Idx → EReal) : T512x128x256.Idx → EReal :=
  fun i => mask (blkCm Y2 (i 0)) (blkQm Y3 (i 0)) (i 2) (i 1)

/-! ## Over the arrays as given, leading axes 16 × 4 × 8 -/

abbrev T16x4x8x256x512 : Shape := ⟨5, ![16, 4, 8, 256, 512]⟩
abbrev T16x4x8x128x512 : Shape := ⟨5, ![16, 4, 8, 128, 512]⟩
abbrev T16x4x8x256 : Shape := ⟨4, ![16, 4, 8, 256]⟩
abbrev T16x4x8x128 : Shape := ⟨4, ![16, 4, 8, 128]⟩
abbrev T16x4x8x256x128 : Shape := ⟨5, ![16, 4, 8, 256, 128]⟩
abbrev T16x4x8x128x256 : Shape := ⟨5, ![16, 4, 8, 128, 256]⟩

/-- Block `(a, b, d)` of each argument array. -/
def rowsC (X : T16x4x8x256x512.Idx → EReal) (a : Fin 16) (b : Fin 4) (d : Fin 8) : Fin 256 → Fin 512 → EReal :=
  fun c h => X (ix5 a b d c h)
def rowsQ (X : T16x4x8x128x512.Idx → EReal) (a : Fin 16) (b : Fin 4) (d : Fin 8) : Fin 128 → Fin 512 → EReal :=
  fun q h => X (ix5 a b d q h)
def rowsCm (X : T16x4x8x256.Idx → EReal) (a : Fin 16) (b : Fin 4) (d : Fin 8) : Fin 256 → EReal := fun c => X (ix4 a b d c)
def rowsQm (X : T16x4x8x128.Idx → EReal) (a : Fin 16) (b : Fin 4) (d : Fin 8) : Fin 128 → EReal := fun q => X (ix4 a b d q)

def GattendC (X0 : T16x4x8x256x512.Idx → EReal) (X1 : T16x4x8x128x512.Idx → EReal) (X2 : T16x4x8x256.Idx → EReal)
    (X3 : T16x4x8x128.Idx → EReal) : T16x4x8x256x512.Idx → EReal :=
  fun i => attendC (rowsC X0 (i 0) (i 1) (i 2)) (rowsQ X1 (i 0) (i 1) (i 2)) (rowsCm X2 (i 0) (i 1) (i 2))
    (rowsQm X3 (i 0) (i 1) (i 2)) (i 3) (i 4)
def GattendQ (X0 : T16x4x8x256x512.Idx → EReal) (X1 : T16x4x8x128x512.Idx → EReal) (X2 : T16x4x8x256.Idx → EReal)
    (X3 : T16x4x8x128.Idx → EReal) : T16x4x8x128x512.Idx → EReal :=
  fun i => attendQ (rowsC X0 (i 0) (i 1) (i 2)) (rowsQ X1 (i 0) (i 1) (i 2)) (rowsCm X2 (i 0) (i 1) (i 2))
    (rowsQm X3 (i 0) (i 1) (i 2)) (i 3) (i 4)
def Gmask (X2 : T16x4x8x256.Idx → EReal) (X3 : T16x4x8x128.Idx → EReal) : T16x4x8x256x128.Idx → EReal :=
  fun i => mask (rowsCm X2 (i 0) (i 1) (i 2)) (rowsQm X3 (i 0) (i 1) (i 2)) (i 3) (i 4)
def GmaskT (X2 : T16x4x8x256.Idx → EReal) (X3 : T16x4x8x128.Idx → EReal) : T16x4x8x128x256.Idx → EReal :=
  fun i => mask (rowsCm X2 (i 0) (i 1) (i 2)) (rowsQm X3 (i 0) (i 1) (i 2)) (i 4) (i 3)

end Cert.Attention

end
-- ==== Proof.KernelOut.lean ====
/-
  What the body leaves in each output block is the payload of its one store: the store covers the block through the
  whole-block rectangle at offset zero, and every load reads an input block through the same rectangle.
-/
import proofs.«123773_j1580547972585_1_alg».proof.Proof.Gen.KernelIdeal.Frame
import Idealize.ShloMosaic.Lib.Pipeline.Value

noncomputable section

namespace Cert.KernelOut

open Idealize.ShloMosaic Cert.KernelIdeal Cert.KernelIdeal.Gen

variable {F : FTy → Type} [FloatOps F]

/-- The three zero offsets, as the constant function. -/
theorem hz : (![0, 0, 0] : Fin 3 → Nat) = fun _ => 0 := funext fun a => by fin_cases a <;> rfl

theorem out0_4_eq (x0 : Vec F S4x256x512 .f32) (x1 : Vec F S4x128x512 .f32) (x2 : Vec F S4x256x1 .f32) (x3 : Vec F S4x1x128 .f32) :
    out0_4 x0 x1 x2 x3 = k0_pay1 (k0_pay5 x1) (k0_pay6 x2 x3) (k0_pay7 x0 x1 x2 x3) (k0_pay8 x0 x1 x2 x3) := by
  unfold out0_4
  rw [View.canon_unit_zero hz]
  simp only [View.ld_unit_zero (S := S4x256x512) hz, View.ld_unit_zero (S := S4x128x512) hz,
    View.ld_unit_zero (S := S4x256x1) hz, View.ld_unit_zero (S := S4x1x128) hz]

theorem out0_5_eq (x0 : Vec F S4x256x512 .f32) (x1 : Vec F S4x128x512 .f32) (x2 : Vec F S4x256x1 .f32) (x3 : Vec F S4x1x128 .f32) :
    out0_5 x0 x1 x2 x3 = k0_pay2 (k0_pay4 x0) (k0_pay6 x2 x3) (k0_pay7 x0 x1 x2 x3) := by
  unfold out0_5
  rw [View.canon_unit_zero hz]
  simp only [View.ld_unit_zero (S := S4x256x512) hz, View.ld_unit_zero (S := S4x128x512) hz,
    View.ld_unit_zero (S := S4x256x1) hz, View.ld_unit_zero (S := S4x1x128) hz]

theorem out0_6_eq (x0 : Vec F S4x256x512 .f32) (x1 : Vec F S4x128x512 .f32) (x2 : Vec F S4x256x1 .f32) (x3 : Vec F S4x1x128 .f32) :
    out0_6 x0 x1 x2 x3 = k0_pay6 x2 x3 := by
  unfold out0_6
  rw [View.canon_unit_zero hz]
  simp only [View.ld_unit_zero (S := S4x256x1) hz, View.ld_unit_zero (S := S4x1x128) hz]

theorem out0_7_eq (x0 : Vec F S4x256x512 .f32) (x1 : Vec F S4x128x512 .f32) (x2 : Vec F S4x256x1 .f32) (x3 : Vec F S4x1x128 .f32) :
    out0_7 x0 x1 x2 x3 = k0_pay3 (k0_pay6 x2 x3) := by
  unfold out0_7
  rw [View.canon_unit_zero hz]
  simp only [View.ld_unit_zero (S := S4x256x1) hz, View.ld_unit_zero (S := S4x1x128) hz]

end Cert.KernelOut

end
-- ==== Proof.LibStackLayout.lean ====
/-
  Rank-3 arrays — a stack of `m` matrices — read at an index given by its three coordinates `ix3 i j k`, generic in
  the extents; it imports only the library.

  * a shape cast that adds a unit axis, `[m, a] → [m, a, 1]` and `[m, b] → [m, 1, b]`, reads the operand at the two
    remaining coordinates;
  * a broadcast along a unit axis, `[m, a, 1] → [m, a, n]` and `[m, 1, b] → [m, a, b]`, reads the operand at `0` on
    that axis;
  * over the extended reals, a one-axis `multi_reduction` of a rank-3 vector along its last axis or along its middle
    axis: `add` is the finite sum over the reduced coordinate, `maximumf` the fold of `max` from the accumulator's
    word over it (the word is never evaluated).
-/
import Idealize.ShloMosaic.Lib.ValueLayout
import Idealize.ShloMosaic.PureOps.Ideal.Laws

noncomputable section

namespace Cert.StackLayout

open Idealize.ShloMosaic Idealize.ShloMosaic.ValueIdx

variable {α : Type}

/-! ## Shape casts that add a unit axis -/

/-- An `[m, a]` array cast to `[m, a, 1]` reads, at `(i, j, u)`, the operand at `(i, j)`. -/
theorem shapeCast_ma_ma1_apply {m a : ℕ} (x : (⟨2, ![m, a]⟩ : Shape).Idx → α)
    (h : (⟨2, ![m, a]⟩ : Shape).ShapeCasts ⟨3, ![m, a, 1]⟩) (i : Fin m) (j : Fin a) (u : Fin 1) :
    shapeCast ⟨3, ![m, a, 1]⟩ x h (ix3 i j u) = x (ix2 i j) :=
  shapeCast_apply x h _ _ (by
    have hu : u.val = 0 := by omega
    rw [Shape.rowMajor_val_three, Shape.rowMajor_val_two]
    show i.val * a + j.val = (i.val * a + j.val) * 1 + u.val
    rw [hu, Nat.mul_one, Nat.add_zero])

/-- An `[m, b]` array cast to `[m, 1, b]` reads, at `(i, u, j)`, the operand at `(i, j)`. -/
theorem shapeCast_mb_m1b_apply {m b : ℕ} (x : (⟨2, ![m, b]⟩ : Shape).Idx → α)
    (h : (⟨2, ![m, b]⟩ : Shape).ShapeCasts ⟨3, ![m, 1, b]⟩) (i : Fin m) (u : Fin 1) (j : Fin b) :
    shapeCast ⟨3, ![m, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## Broadcasts along a unit axis -/

/-- An `[m, a, 1]` array broadcast to `[m, a, n]` reads, at `(i, j, k)`, the operand at `(i, j, 0)`. -/
theorem broadcastTo_ma1_man_apply {m a n : ℕ} (x : (⟨3, ![m, a, 1]⟩ : Shape).Idx → α)
    (h : (⟨3, ![m, a, 1]⟩ : Shape).Broadcasts ⟨3, ![m, a, n]⟩) (i : Fin m) (j : Fin a) (k : Fin n) :
    broadcastTo ⟨3, ![m, a, n]⟩ x h (ix3 i j k) = x (ix3 i j (0 : Fin 1)) := by
  refine broadcastTo_apply x h (ix3 i j k) (ix3 i j (0 : Fin 1)) fun ax => ?_
  match ax with
  | ⟨0, _⟩ =>
    show i.val = if m = 1 then 0 else i.val
    split
    · have := i.isLt; omega
    · rfl
  | ⟨1, _⟩ =>
    show j.val = if a = 1 then 0 else j.val
    split
    · have := j.isLt; omega
    · rfl
  | ⟨2, _⟩ => rfl

/-- An `[m, 1, b]` array broadcast to `[m, a, b]` reads, at `(i, j, k)`, the operand at `(i, 0, k)`. -/
theorem broadcastTo_m1b_mab_apply {m a b : ℕ} (x : (⟨3, ![m, 1, b]⟩ : Shape).Idx → α)
    (h : (⟨3, ![m, 1, b]⟩ : Shape).Broadcasts ⟨3, ![m, a, b]⟩) (i : Fin m) (j : Fin a) (k : Fin b) :
    broadcastTo ⟨3, ![m, a, b]⟩ x h (ix3 i j k) = x (ix3 i (0 : Fin 1) k) := by
  refine broadcastTo_apply x h (ix3 i j k) (ix3 i (0 : Fin 1) k) fun ax => ?_
  match ax with
  | ⟨0, _⟩ =>
    show i.val = if m = 1 then 0 else i.val
    split
    · have := i.isLt; omega
    · rfl
  | ⟨1, _⟩ => rfl
  | ⟨2, _⟩ =>
    show k.val = if b = 1 then 0 else k.val
    split
    · have := k.isLt; omega
    · rfl

/-! ## One-axis reductions of a stack of matrices -/

section Reduce
variable {φ : FTy}

/-- The sum along the last axis of an `[m, a, n]` array, at `(i, j)`, is the sum over `k` of the entries `(i, j, k)`. -/
theorem multiReduction_add_axis2_apply {m a n : ℕ} (src : FVec Ideal ⟨3, ![m, a, n]⟩ φ) (acc : BitVec φ.bits)
    (h : (⟨3, ![m, a, n]⟩ : Shape).Reduces [2] ⟨2, ![m, a]⟩) (hφ : FKind.Formats φ) (hacc : acc = FKind.add.neutral φ hφ)
    (i : Fin m) (j : Fin a) :
    multiReduction (F := Ideal) .add [2] ⟨2, ![m, a]⟩ src acc h hφ hacc (ix2 i j) = ∑ k : Fin n, src (ix3 i j k) := by
  refine (Ideal.multiReduction_add_single src acc h hφ hacc (ix2 i j)).trans ?_
  refine Finset.sum_congr rfl fun k _ => congrArg src ?_
  funext c
  match c with
  | ⟨0, _⟩ => rfl
  | ⟨1, _⟩ => rfl
  | ⟨2, _⟩ => rfl

/-- The sum along the middle axis of an `[m, a, n]` array, at `(i, k)`, is the sum over `j` of the entries `(i, j, k)`. -/
theorem multiReduction_add_axis1_apply {m a n : ℕ} (src : FVec Ideal ⟨3, ![m, a, n]⟩ φ) (acc : BitVec φ.bits)
    (h : (⟨3, ![m, a, n]⟩ : Shape).Reduces [1] ⟨2, ![m, n]⟩) (hφ : FKind.Formats φ) (hacc : acc = FKind.add.neutral φ hφ)
    (i : Fin m) (k : Fin n) :
    multiReduction (F := Ideal) .add [1] ⟨2, ![m, n]⟩ src acc h hφ hacc (ix2 i k) = ∑ j : Fin a, src (ix3 i j k) := by
  refine (Ideal.multiReduction_add_single src acc h hφ hacc (ix2 i k)).trans ?_
  refine Finset.sum_congr rfl fun j _ => congrArg src ?_
  funext c
  match c with
  | ⟨0, _⟩ => rfl
  | ⟨1, _⟩ => rfl
  | ⟨2, _⟩ => rfl

/-- The maximum along the last axis of an `[m, a, n]` array, at `(i, j)`, is the fold of `max`, from the accumulator's
    value, over `k` of the entries `(i, j, k)`. -/
theorem multiReduction_maximumf_axis2_apply {m a n : ℕ} (src : FVec Ideal ⟨3, ![m, a, n]⟩ φ) (acc : BitVec φ.bits)
    (h : (⟨3, ![m, a, n]⟩ : Shape).Reduces [2] ⟨2, ![m, a]⟩) (hφ : FKind.Formats φ) (hacc : acc = FKind.maximumf.neutral φ hφ)
    (i : Fin m) (j : Fin a) :
    multiReduction (F := Ideal) .maximumf [2] ⟨2, ![m, a]⟩ src acc h hφ hacc (ix2 i j)
      = (Finset.univ : Finset (Fin n)).fold max (Ideal.ofBits φ acc) (fun k => src (ix3 i j k)) := by
  refine (Ideal.multiReduction_maximumf_single src acc h hφ hacc (ix2 i j)).trans ?_
  refine congrArg (fun f => (Finset.univ : Finset (Fin n)).fold max (Ideal.ofBits φ acc) f) ?_
  funext k
  refine congrArg src ?_
  funext c
  match c with
  | ⟨0, _⟩ => rfl
  | ⟨1, _⟩ => rfl
  | ⟨2, _⟩ => rfl

/-- The maximum along the middle axis of an `[m, a, n]` array, at `(i, k)`, is the fold of `max`, from the accumulator's
    value, over `j` of the entries `(i, j, k)`. -/
theorem multiReduction_maximumf_axis1_apply {m a n : ℕ} (src : FVec Ideal ⟨3, ![m, a, n]⟩ φ) (acc : BitVec φ.bits)
    (h : (⟨3, ![m, a, n]⟩ : Shape).Reduces [1] ⟨2, ![m, n]⟩) (hφ : FKind.Formats φ) (hacc : acc = FKind.maximumf.neutral φ hφ)
    (i : Fin m) (k : Fin n) :
    multiReduction (F := Ideal) .maximumf [1] ⟨2, ![m, n]⟩ src acc h hφ hacc (ix2 i k)
      = (Finset.univ : Finset (Fin a)).fold max (Ideal.ofBits φ acc) (fun j => src (ix3 i j k)) := by
  refine (Ideal.multiReduction_maximumf_single src acc h hφ hacc (ix2 i k)).trans ?_
  refine congrArg (fun f => (Finset.univ : Finset (Fin a)).fold max (Ideal.ofBits φ acc) f) ?_
  funext j
  refine congrArg src ?_
  funext c
  match c with
  | ⟨0, _⟩ => rfl
  | ⟨1, _⟩ => rfl
  | ⟨2, _⟩ => rfl

end Reduce

end Cert.StackLayout

end
-- ==== Proof.KernelMask.lean ====
/-
  The mask product of the kernel body at an index, and its transpose: at `(b, c, q)` the product of the context mask's
  entry `(b, c, 0)` and the query mask's entry `(b, 0, q)`.
-/
import proofs.«123773_j1580547972585_1_alg».proof.Proof.Gen.KernelIdeal.Skeleton
import proofs.«123773_j1580547972585_1_alg».proof.Proof.LibStackLayout

noncomputable section

namespace Cert.KernelMask

open Idealize.ShloMosaic Idealize.ShloMosaic.ValueIdx Cert.KernelIdeal Cert.KernelIdeal.Gen Cert.StackLayout

/-- The mask product: each mask is broadcast along its unit axis and the two are multiplied entry by entry. -/
theorem pay6_apply (v4 : Vec Ideal S4x256x1 .f32) (v6 : Vec Ideal S4x1x128 .f32) (b : Fin 4) (c : Fin 256) (q : Fin 128) :
    k0_pay6 (F := Ideal) v4 v6 (ix3 b c q) = v4 (ix3 b c (0 : Fin 1)) * v6 (ix3 b (0 : Fin 1) q) := by
  unfold k0_pay6
  refine (mulf_apply _ _ _).trans ?_
  rw [broadcastTo_ma1_man_apply, broadcastTo_m1b_mab_apply, shapeCast_self, shapeCast_self]

/-- The stored transpose of the mask product reads, at `(b, q, c)`, the mask product at `(b, c, q)`. -/
theorem pay3_apply (v29 : FVec Ideal S4x256x128 .f32) (b : Fin 4) (q : Fin 128) (c : Fin 256) :
    k0_pay3 (F := Ideal) v29 (ix3 b q c) = v29 (ix3 b c q) := by
  unfold k0_pay3
  exact transpose_ix3_021_apply v29 _ b q c

end Cert.KernelMask

end
-- ==== Proof.KernelMatmul.lean ====
/-
  The three batched products of the kernel body read at an index: into the zero accumulator each is, at `(b, r, s)`,
  the plain sum over the contracted coordinate of the products of the two operands' entries in block row `b`.
-/
import proofs.«123773_j1580547972585_1_alg».proof.Proof.Gen.KernelIdeal
import Idealize.ShloMosaic.Lib.ValueIdx
import Idealize.ShloMosaic.PureOps.Ideal.Laws

noncomputable section

namespace Cert.KernelMatmul

open Idealize.ShloMosaic Idealize.ShloMosaic.ValueIdx Cert.KernelIdeal Cert.KernelIdeal.Gen

/-! ## Rows against rows -/

theorem logits_lhs_0 (j : S4x256x128.Idx) (q : dot_S4x256x512_S4x128x512_S4x256x128_2_2_1_1_0_0.contr.Idx) :
    (dot_S4x256x512_S4x128x512_S4x256x128_2_2_1_1_0_0.lhsIdx j q 0).val = (j 0).val := by
  unfold DotDims.lhsIdx
  rw [dif_pos (show (0 : Fin S4x256x512.rank) ∈ dot_S4x256x512_S4x128x512_S4x256x128_2_2_1_1_0_0.lhsBatch by decide)]
  rfl
theorem logits_lhs_1 (j : S4x256x128.Idx) (q : dot_S4x256x512_S4x128x512_S4x256x128_2_2_1_1_0_0.contr.Idx) :
    (dot_S4x256x512_S4x128x512_S4x256x128_2_2_1_1_0_0.lhsIdx j q 1).val = (j 1).val := by
  unfold DotDims.lhsIdx
  rw [dif_neg (show ¬(1 : Fin S4x256x512.rank) ∈ dot_S4x256x512_S4x128x512_S4x256x128_2_2_1_1_0_0.lhsBatch by decide), dif_pos (show (1 : Fin S4x256x512.rank) ∈ dot_S4x256x512_S4x128x512_S4x256x128_2_2_1_1_0_0.lhsNonContracting by decide)]
  rfl
theorem logits_lhs_2 (j : S4x256x128.Idx) (q : dot_S4x256x512_S4x128x512_S4x256x128_2_2_1_1_0_0.contr.Idx) :
    (dot_S4x256x512_S4x128x512_S4x256x128_2_2_1_1_0_0.lhsIdx j q 2).val = (q ⟨0, by decide⟩).val :=
  dot_S4x256x512_S4x128x512_S4x256x128_2_2_1_1_0_0.lhsIdx_val_of_single rfl j q
theorem logits_rhs_0 (j : S4x256x128.Idx) (q : dot_S4x256x512_S4x128x512_S4x256x128_2_2_1_1_0_0.contr.Idx) :
    (dot_S4x256x512_S4x128x512_S4x256x128_2_2_1_1_0_0.rhsIdx j q 0).val = (j 0).val := by
  unfold DotDims.rhsIdx
  rw [dif_pos (show (0 : Fin S4x128x512.rank) ∈ dot_S4x256x512_S4x128x512_S4x256x128_2_2_1_1_0_0.rhsBatch by decide)]
  rfl
theorem logits_rhs_1 (j : S4x256x128.Idx) (q : dot_S4x256x512_S4x128x512_S4x256x128_2_2_1_1_0_0.contr.Idx) :
    (dot_S4x256x512_S4x128x512_S4x256x128_2_2_1_1_0_0.rhsIdx j q 1).val = (j 2).val := by
  unfold DotDims.rhsIdx
  rw [dif_neg (show ¬(1 : Fin S4x128x512.rank) ∈ dot_S4x256x512_S4x128x512_S4x256x128_2_2_1_1_0_0.rhsBatch by decide), dif_pos (show (1 : Fin S4x128x512.rank) ∈ dot_S4x256x512_S4x128x512_S4x256x128_2_2_1_1_0_0.rhsNonContracting by decide)]
  rfl
theorem logits_rhs_2 (j : S4x256x128.Idx) (q : dot_S4x256x512_S4x128x512_S4x256x128_2_2_1_1_0_0.contr.Idx) :
    (dot_S4x256x512_S4x128x512_S4x256x128_2_2_1_1_0_0.rhsIdx j q 2).val = (q ⟨0, by decide⟩).val :=
  dot_S4x256x512_S4x128x512_S4x256x128_2_2_1_1_0_0.rhsIdx_val_of_single rfl j q

/-- `[4, 256, 512] × [4, 128, 512]`, both contracted along their last axis, at `(b, c, q)` is `∑ k, lhs (b, c, k) * rhs (b, q, k)`. -/
theorem matmul_logits_apply {φ₁ φ₂ : FTy} (lhs : FVec Ideal S4x256x512 φ₁) (rhs : FVec Ideal S4x128x512 φ₂) (b : Fin 4) (c : Fin 256) (q : Fin 128) :
    matmul (F := Ideal) dot_S4x256x512_S4x128x512_S4x256x128_2_2_1_1_0_0 none lhs rhs (constant (F := Ideal) S4x256x128 .f32 0x00000000#32) (ix3 b c q)
      = ∑ k : Fin 512, lhs (ix3 b c k) * rhs (ix3 b q k) := by
  show FloatOps.matmul dot_S4x256x512_S4x128x512_S4x256x128_2_2_1_1_0_0 none lhs rhs (constant S4x256x128 .f32 0x00000000#32) (ix3 b c q) = _
  rw [Ideal.matmul_constant_zero_apply, ← Equiv.sum_comp (contrEquiv1 dot_S4x256x512_S4x128x512_S4x256x128_2_2_1_1_0_0 512 rfl rfl).symm]
  refine Finset.sum_congr rfl fun k _ => ?_
  have hk := contrEquiv1_symm_val dot_S4x256x512_S4x128x512_S4x256x128_2_2_1_1_0_0 512 rfl rfl k
  have el : dot_S4x256x512_S4x128x512_S4x256x128_2_2_1_1_0_0.lhsIdx (ix3 b c q) ((contrEquiv1 dot_S4x256x512_S4x128x512_S4x256x128_2_2_1_1_0_0 512 rfl rfl).symm k) = ix3 b c k := funext fun a => Fin.ext (by
    match a with
    | ⟨0, _⟩ => exact logits_lhs_0 _ _
    | ⟨1, _⟩ => exact logits_lhs_1 _ _
    | ⟨2, _⟩ => exact (logits_lhs_2 _ _).trans hk)
  have er : dot_S4x256x512_S4x128x512_S4x256x128_2_2_1_1_0_0.rhsIdx (ix3 b c q) ((contrEquiv1 dot_S4x256x512_S4x128x512_S4x256x128_2_2_1_1_0_0 512 rfl rfl).symm k) = ix3 b q k := funext fun a => Fin.ext (by
    match a with
    | ⟨0, _⟩ => exact logits_rhs_0 _ _
    | ⟨1, _⟩ => exact logits_rhs_1 _ _
    | ⟨2, _⟩ => exact (logits_rhs_2 _ _).trans hk)
  rw [el, er]

/-! ## Weights against rows -/

theorem attendC_lhs_0 (j : S4x256x512.Idx) (q : dot_S4x256x128_S4x128x512_S4x256x512_2_1_1_2_0_0.contr.Idx) :
    (dot_S4x256x128_S4x128x512_S4x256x512_2_1_1_2_0_0.lhsIdx j q 0).val = (j 0).val := by
  unfold DotDims.lhsIdx
  rw [dif_pos (show (0 : Fin S4x256x128.rank) ∈ dot_S4x256x128_S4x128x512_S4x256x512_2_1_1_2_0_0.lhsBatch by decide)]
  rfl
theorem attendC_lhs_1 (j : S4x256x512.Idx) (q : dot_S4x256x128_S4x128x512_S4x256x512_2_1_1_2_0_0.contr.Idx) :
    (dot_S4x256x128_S4x128x512_S4x256x512_2_1_1_2_0_0.lhsIdx j q 1).val = (j 1).val := by
  unfold DotDims.lhsIdx
  rw [dif_neg (show ¬(1 : Fin S4x256x128.rank) ∈ dot_S4x256x128_S4x128x512_S4x256x512_2_1_1_2_0_0.lhsBatch by decide), dif_pos (show (1 : Fin S4x256x128.rank) ∈ dot_S4x256x128_S4x128x512_S4x256x512_2_1_1_2_0_0.lhsNonContracting by decide)]
  rfl
theorem attendC_lhs_2 (j : S4x256x512.Idx) (q : dot_S4x256x128_S4x128x512_S4x256x512_2_1_1_2_0_0.contr.Idx) :
    (dot_S4x256x128_S4x128x512_S4x256x512_2_1_1_2_0_0.lhsIdx j q 2).val = (q ⟨0, by decide⟩).val :=
  dot_S4x256x128_S4x128x512_S4x256x512_2_1_1_2_0_0.lhsIdx_val_of_single rfl j q
theorem attendC_rhs_0 (j : S4x256x512.Idx) (q : dot_S4x256x128_S4x128x512_S4x256x512_2_1_1_2_0_0.contr.Idx) :
    (dot_S4x256x128_S4x128x512_S4x256x512_2_1_1_2_0_0.rhsIdx j q 0).val = (j 0).val := by
  unfold DotDims.rhsIdx
  rw [dif_pos (show (0 : Fin S4x128x512.rank) ∈ dot_S4x256x128_S4x128x512_S4x256x512_2_1_1_2_0_0.rhsBatch by decide)]
  rfl
theorem attendC_rhs_1 (j : S4x256x512.Idx) (q : dot_S4x256x128_S4x128x512_S4x256x512_2_1_1_2_0_0.contr.Idx) :
    (dot_S4x256x128_S4x128x512_S4x256x512_2_1_1_2_0_0.rhsIdx j q 1).val = (q ⟨0, by decide⟩).val :=
  dot_S4x256x128_S4x128x512_S4x256x512_2_1_1_2_0_0.rhsIdx_val_of_single rfl j q
theorem attendC_rhs_2 (j : S4x256x512.Idx) (q : dot_S4x256x128_S4x128x512_S4x256x512_2_1_1_2_0_0.contr.Idx) :
    (dot_S4x256x128_S4x128x512_S4x256x512_2_1_1_2_0_0.rhsIdx j q 2).val = (j 2).val := by
  unfold DotDims.rhsIdx
  rw [dif_neg (show ¬(2 : Fin S4x128x512.rank) ∈ dot_S4x256x128_S4x128x512_S4x256x512_2_1_1_2_0_0.rhsBatch by decide), dif_pos (show (2 : Fin S4x128x512.rank) ∈ dot_S4x256x128_S4x128x512_S4x256x512_2_1_1_2_0_0.rhsNonContracting by decide)]
  rfl

/-- `[4, 256, 128] × [4, 128, 512]`, at `(b, c, h)` is `∑ k, lhs (b, c, k) * rhs (b, k, h)`. -/
theorem matmul_attendC_apply {φ₁ φ₂ : FTy} (lhs : FVec Ideal S4x256x128 φ₁) (rhs : FVec Ideal S4x128x512 φ₂) (b : Fin 4) (c : Fin 256) (h : Fin 512) :
    matmul (F := Ideal) dot_S4x256x128_S4x128x512_S4x256x512_2_1_1_2_0_0 none lhs rhs (constant (F := Ideal) S4x256x512 .f32 0x00000000#32) (ix3 b c h)
      = ∑ k : Fin 128, lhs (ix3 b c k) * rhs (ix3 b k h) := by
  show FloatOps.matmul dot_S4x256x128_S4x128x512_S4x256x512_2_1_1_2_0_0 none lhs rhs (constant S4x256x512 .f32 0x00000000#32) (ix3 b c h) = _
  rw [Ideal.matmul_constant_zero_apply, ← Equiv.sum_comp (contrEquiv1 dot_S4x256x128_S4x128x512_S4x256x512_2_1_1_2_0_0 128 rfl rfl).symm]
  refine Finset.sum_congr rfl fun k _ => ?_
  have hk := contrEquiv1_symm_val dot_S4x256x128_S4x128x512_S4x256x512_2_1_1_2_0_0 128 rfl rfl k
  have el : dot_S4x256x128_S4x128x512_S4x256x512_2_1_1_2_0_0.lhsIdx (ix3 b c h) ((contrEquiv1 dot_S4x256x128_S4x128x512_S4x256x512_2_1_1_2_0_0 128 rfl rfl).symm k) = ix3 b c k := funext fun a => Fin.ext (by
    match a with
    | ⟨0, _⟩ => exact attendC_lhs_0 _ _
    | ⟨1, _⟩ => exact attendC_lhs_1 _ _
    | ⟨2, _⟩ => exact (attendC_lhs_2 _ _).trans hk)
  have er : dot_S4x256x128_S4x128x512_S4x256x512_2_1_1_2_0_0.rhsIdx (ix3 b c h) ((contrEquiv1 dot_S4x256x128_S4x128x512_S4x256x512_2_1_1_2_0_0 128 rfl rfl).symm k) = ix3 b k h := funext fun a => Fin.ext (by
    match a with
    | ⟨0, _⟩ => exact attendC_rhs_0 _ _
    | ⟨1, _⟩ => exact (attendC_rhs_1 _ _).trans hk
    | ⟨2, _⟩ => exact attendC_rhs_2 _ _)
  rw [el, er]

/-! ## Transposed weights against rows -/

theorem attendQ_lhs_0 (j : S4x128x512.Idx) (q : dot_S4x128x256_S4x256x512_S4x128x512_2_1_1_2_0_0.contr.Idx) :
    (dot_S4x128x256_S4x256x512_S4x128x512_2_1_1_2_0_0.lhsIdx j q 0).val = (j 0).val := by
  unfold DotDims.lhsIdx
  rw [dif_pos (show (0 : Fin S4x128x256.rank) ∈ dot_S4x128x256_S4x256x512_S4x128x512_2_1_1_2_0_0.lhsBatch by decide)]
  rfl
theorem attendQ_lhs_1 (j : S4x128x512.Idx) (q : dot_S4x128x256_S4x256x512_S4x128x512_2_1_1_2_0_0.contr.Idx) :
    (dot_S4x128x256_S4x256x512_S4x128x512_2_1_1_2_0_0.lhsIdx j q 1).val = (j 1).val := by
  unfold DotDims.lhsIdx
  rw [dif_neg (show ¬(1 : Fin S4x128x256.rank) ∈ dot_S4x128x256_S4x256x512_S4x128x512_2_1_1_2_0_0.lhsBatch by decide), dif_pos (show (1 : Fin S4x128x256.rank) ∈ dot_S4x128x256_S4x256x512_S4x128x512_2_1_1_2_0_0.lhsNonContracting by decide)]
  rfl
theorem attendQ_lhs_2 (j : S4x128x512.Idx) (q : dot_S4x128x256_S4x256x512_S4x128x512_2_1_1_2_0_0.contr.Idx) :
    (dot_S4x128x256_S4x256x512_S4x128x512_2_1_1_2_0_0.lhsIdx j q 2).val = (q ⟨0, by decide⟩).val :=
  dot_S4x128x256_S4x256x512_S4x128x512_2_1_1_2_0_0.lhsIdx_val_of_single rfl j q
theorem attendQ_rhs_0 (j : S4x128x512.Idx) (q : dot_S4x128x256_S4x256x512_S4x128x512_2_1_1_2_0_0.contr.Idx) :
    (dot_S4x128x256_S4x256x512_S4x128x512_2_1_1_2_0_0.rhsIdx j q 0).val = (j 0).val := by
  unfold DotDims.rhsIdx
  rw [dif_pos (show (0 : Fin S4x256x512.rank) ∈ dot_S4x128x256_S4x256x512_S4x128x512_2_1_1_2_0_0.rhsBatch by decide)]
  rfl
theorem attendQ_rhs_1 (j : S4x128x512.Idx) (q : dot_S4x128x256_S4x256x512_S4x128x512_2_1_1_2_0_0.contr.Idx) :
    (dot_S4x128x256_S4x256x512_S4x128x512_2_1_1_2_0_0.rhsIdx j q 1).val = (q ⟨0, by decide⟩).val :=
  dot_S4x128x256_S4x256x512_S4x128x512_2_1_1_2_0_0.rhsIdx_val_of_single rfl j q
theorem attendQ_rhs_2 (j : S4x128x512.Idx) (q : dot_S4x128x256_S4x256x512_S4x128x512_2_1_1_2_0_0.contr.Idx) :
    (dot_S4x128x256_S4x256x512_S4x128x512_2_1_1_2_0_0.rhsIdx j q 2).val = (j 2).val := by
  unfold DotDims.rhsIdx
  rw [dif_neg (show ¬(2 : Fin S4x256x512.rank) ∈ dot_S4x128x256_S4x256x512_S4x128x512_2_1_1_2_0_0.rhsBatch by decide), dif_pos (show (2 : Fin S4x256x512.rank) ∈ dot_S4x128x256_S4x256x512_S4x128x512_2_1_1_2_0_0.rhsNonContracting by decide)]
  rfl

/-- `[4, 128, 256] × [4, 256, 512]`, at `(b, q, h)` is `∑ k, lhs (b, q, k) * rhs (b, k, h)`. -/
theorem matmul_attendQ_apply {φ₁ φ₂ : FTy} (lhs : FVec Ideal S4x128x256 φ₁) (rhs : FVec Ideal S4x256x512 φ₂) (b : Fin 4) (q : Fin 128) (h : Fin 512) :
    matmul (F := Ideal) dot_S4x128x256_S4x256x512_S4x128x512_2_1_1_2_0_0 none lhs rhs (constant (F := Ideal) S4x128x512 .f32 0x00000000#32) (ix3 b q h)
      = ∑ k : Fin 256, lhs (ix3 b q k) * rhs (ix3 b k h) := by
  show FloatOps.matmul dot_S4x128x256_S4x256x512_S4x128x512_2_1_1_2_0_0 none lhs rhs (constant S4x128x512 .f32 0x00000000#32) (ix3 b q h) = _
  rw [Ideal.matmul_constant_zero_apply, ← Equiv.sum_comp (contrEquiv1 dot_S4x128x256_S4x256x512_S4x128x512_2_1_1_2_0_0 256 rfl rfl).symm]
  refine Finset.sum_congr rfl fun k _ => ?_
  have hk := contrEquiv1_symm_val dot_S4x128x256_S4x256x512_S4x128x512_2_1_1_2_0_0 256 rfl rfl k
  have el : dot_S4x128x256_S4x256x512_S4x128x512_2_1_1_2_0_0.lhsIdx (ix3 b q h) ((contrEquiv1 dot_S4x128x256_S4x256x512_S4x128x512_2_1_1_2_0_0 256 rfl rfl).symm k) = ix3 b q k := funext fun a => Fin.ext (by
    match a with
    | ⟨0, _⟩ => exact attendQ_lhs_0 _ _
    | ⟨1, _⟩ => exact attendQ_lhs_1 _ _
    | ⟨2, _⟩ => exact (attendQ_lhs_2 _ _).trans hk)
  have er : dot_S4x128x256_S4x256x512_S4x128x512_2_1_1_2_0_0.rhsIdx (ix3 b q h) ((contrEquiv1 dot_S4x128x256_S4x256x512_S4x128x512_2_1_1_2_0_0 256 rfl rfl).symm k) = ix3 b k h := funext fun a => Fin.ext (by
    match a with
    | ⟨0, _⟩ => exact attendQ_rhs_0 _ _
    | ⟨1, _⟩ => exact (attendQ_rhs_1 _ _).trans hk
    | ⟨2, _⟩ => exact attendQ_rhs_2 _ _)
  rw [el, er]

end Cert.KernelMatmul

end
-- ==== Proof.KernelLogit.lean ====
/-
  The scaled, masked logits of the kernel body at an index: at `(b, c, q)` they are the attention block's logit of
  context row `c` and query row `q` of block row `b` of the four inputs; and their maximum along the query axis.
-/
import proofs.«123773_j1580547972585_1_alg».proof.Proof.Gen.KernelIdeal.Skeleton
import proofs.«123773_j1580547972585_1_alg».proof.Proof.LibStackLayout
import proofs.«123773_j1580547972585_1_alg».proof.Proof.KernelMatmul
import proofs.«123773_j1580547972585_1_alg».proof.Proof.KernelMask
import proofs.«123773_j1580547972585_1_alg».proof.Proof.Attention

noncomputable section

namespace Cert.KernelLogit

open Idealize.ShloMosaic Idealize.ShloMosaic.ValueIdx Cert.KernelIdeal Cert.KernelIdeal.Gen Cert.StackLayout
  Cert.KernelMatmul Cert.KernelMask Cert.Attention

/-! ## Rows divided by their floored norms -/

/-- The floored norm of each row of a stack of matrices, kept with a unit axis: at `(i, j, 0)` the maximum of the
    square root of the row's sum of squares and the floor's word. -/
theorem rowNorm_apply {m a k : ℕ} (v : FVec Ideal ⟨3, ![m, a, k]⟩ .f32) (w : BitVec 32)
    (hr : (⟨3, ![m, a, k]⟩ : Shape).Reduces [2] ⟨2, ![m, a]⟩) (hφ : FKind.Formats .f32)
    (hacc : (0x00000000#32 : BitVec 32) = FKind.add.neutral .f32 hφ)
    (hs : (⟨2, ![m, a]⟩ : Shape).ShapeCasts ⟨3, ![m, a, 1]⟩) (i : Fin m) (j : Fin a) :
    maximumf (sqrt (shapeCast ⟨3, ![m, a, 1]⟩ (multiReduction (F := Ideal) .add [2] ⟨2, ![m, a]⟩ (mulf v v) 0x00000000#32 hr hφ hacc) hs))
        (broadcast ⟨3, ![m, a, 1]⟩ (Scalar.ofBits (F := Ideal) .f32 w)) (ix3 i j (0 : Fin 1))
      = max (Ideal.sqrt (∑ h : Fin k, v (ix3 i j h) * v (ix3 i j h))) (Ideal.ofBits .f32 w) := by
  refine (maximumf_apply _ _ _).trans ?_
  refine congrArg₂ max ?_ rfl
  show Ideal.sqrt (shapeCast ⟨3, ![m, a, 1]⟩ (multiReduction (F := Ideal) .add [2] ⟨2, ![m, a]⟩ (mulf v v) 0x00000000#32 hr hφ hacc) hs (ix3 i j (0 : Fin 1))) = _
  refine congrArg Ideal.sqrt ?_
  rw [shapeCast_ma_ma1_apply, multiReduction_add_axis2_apply]
  rfl

/-- A stack of matrices with each row divided by its floored norm: at `(i, j, h)` the entry divided by the row's
    floored norm. -/
theorem unitRow_apply {m a k : ℕ} (v : FVec Ideal ⟨3, ![m, a, k]⟩ .f32) (w : BitVec 32)
    (hr : (⟨3, ![m, a, k]⟩ : Shape).Reduces [2] ⟨2, ![m, a]⟩) (hφ : FKind.Formats .f32)
    (hacc : (0x00000000#32 : BitVec 32) = FKind.add.neutral .f32 hφ)
    (hs : (⟨2, ![m, a]⟩ : Shape).ShapeCasts ⟨3, ![m, a, 1]⟩)
    (hb : (⟨3, ![m, a, 1]⟩ : Shape).Broadcasts ⟨3, ![m, a, k]⟩) (i : Fin m) (j : Fin a) (h : Fin k) :
    divf v (broadcastTo ⟨3, ![m, a, k]⟩
        (maximumf (sqrt (shapeCast ⟨3, ![m, a, 1]⟩ (multiReduction (F := Ideal) .add [2] ⟨2, ![m, a]⟩ (mulf v v) 0x00000000#32 hr hφ hacc) hs))
          (broadcast ⟨3, ![m, a, 1]⟩ (Scalar.ofBits (F := Ideal) .f32 w))) hb) (ix3 i j h)
      = Ideal.div (v (ix3 i j h)) (max (Ideal.sqrt (∑ h' : Fin k, v (ix3 i j h') * v (ix3 i j h'))) (Ideal.ofBits .f32 w)) := by
  refine (divf_apply _ _ _).trans ?_
  refine congrArg (Ideal.div (v (ix3 i j h))) ?_
  rw [broadcastTo_ma1_man_apply]
  exact rowNorm_apply v w hr hφ hacc hs i j

/-! ## The logits -/

/-- The body's scaled masked logits at `(b, c, q)`. -/
theorem pay7_apply (v0 : Vec Ideal S4x256x512 .f32) (v2 : Vec Ideal S4x128x512 .f32) (v4 : Vec Ideal S4x256x1 .f32)
    (v6 : Vec Ideal S4x1x128 .f32) (b : Fin 4) (c : Fin 256) (q : Fin 128) :
    k0_pay7 (F := Ideal) v0 v2 v4 v6 (ix3 b c q)
      = logit (fun c h => v0 (ix3 b c h)) (fun q h => v2 (ix3 b q h)) (fun c => v4 (ix3 b c (0 : Fin 1)))
          (fun q => v6 (ix3 b (0 : Fin 1) q)) c q := by
  unfold k0_pay7 k0_pay4 k0_pay5
  simp only [shapeCast_self]
  refine (mulf_apply _ _ _).trans ?_
  unfold logit
  refine congrArg₂ (· * ·) ?_ rfl
  refine (subf_apply _ _ _).trans ?_
  refine congrArg₂ (· - ·) ?_ ?_
  · refine (matmul_logits_apply _ _ b c q).trans ?_
    refine Finset.sum_congr rfl fun k _ => ?_
    refine congrArg₂ (· * ·) ?_ ?_
    · refine (truncf_apply (ψ := .bf16) _ bitsLt_bf16_f32 _).trans ?_
      exact unitRow_apply v0 _ _ _ _ _ _ b c k
    · refine (truncf_apply (ψ := .bf16) _ bitsLt_bf16_f32 _).trans ?_
      exact unitRow_apply v2 _ _ _ _ _ _ b q k
  · refine (mulf_apply _ _ _).trans ?_
    refine congrArg₂ (· * ·) rfl ?_
    refine (subf_apply _ _ _).trans ?_
    refine congrArg₂ (· - ·) rfl ?_
    exact pay6_apply v4 v6 b c q

/-- The body's row maxima of the logits along the query axis, at `(b, c)`. -/
theorem pay8_apply (v0 : Vec Ideal S4x256x512 .f32) (v2 : Vec Ideal S4x128x512 .f32) (v4 : Vec Ideal S4x256x1 .f32)
    (v6 : Vec Ideal S4x1x128 .f32) (b : Fin 4) (c : Fin 256) :
    k0_pay8 (F := Ideal) v0 v2 v4 v6 (ix2 b c)
      = top (fun q => k0_pay7 (F := Ideal) v0 v2 v4 v6 (ix3 b c q)) := by
  unfold k0_pay8
  exact multiReduction_maximumf_axis2_apply _ _ _ _ _ b c

end Cert.KernelLogit

end
-- ==== Proof.KernelSoft.lean ====
/-
  The two outputs of the kernel body that a batched product stores, at an index, over arbitrary logits, mask product
  and rows: the softmax of the logits along one axis, shifted by the maximum along that axis, times the mask product,
  summed against the rows of the other operand.
-/
import proofs.«123773_j1580547972585_1_alg».proof.Proof.Gen.KernelIdeal.Skeleton
import proofs.«123773_j1580547972585_1_alg».proof.Proof.LibStackLayout
import proofs.«123773_j1580547972585_1_alg».proof.Proof.KernelMatmul
import proofs.«123773_j1580547972585_1_alg».proof.Proof.Attention

noncomputable section

namespace Cert.KernelSoft

open Idealize.ShloMosaic Idealize.ShloMosaic.ValueIdx Cert.KernelIdeal Cert.KernelIdeal.Gen Cert.StackLayout
  Cert.KernelMatmul Cert.Attention

/-! ## Along the query axis -/

/-- The exponential of the logits lowered by a per-(block row, context row) amount, at `(b, c, q)`. -/
theorem expShiftC_apply (v36 : FVec Ideal S4x256x128 .f32) (v37 : FVec Ideal S4x256 .f32) (b : Fin 4) (c : Fin 256) (q : Fin 128) :
    exp (subf v36 (broadcastTo S4x256x128 (shapeCast S4x256x1 v37 shapeCasts_S4x256_S4x256x1) broadcasts_S4x256x1_S4x256x128)) (ix3 b c q)
      = Ideal.exp (v36 (ix3 b c q) - v37 (ix2 b c)) := by
  show Ideal.exp (subf v36 (broadcastTo S4x256x128 (shapeCast S4x256x1 v37 shapeCasts_S4x256_S4x256x1) broadcasts_S4x256x1_S4x256x128) (ix3 b c q)) = _
  refine congrArg Ideal.exp ?_
  refine (subf_apply _ _ _).trans ?_
  refine congrArg₂ (· - ·) rfl ?_
  rw [broadcastTo_ma1_man_apply, shapeCast_ma_ma1_apply]

/-- What the body stores in its first output block, at `(b, c, h)`. -/
theorem pay1_apply (v3 : FVec Ideal S4x128x512 .f32) (v29 : FVec Ideal S4x256x128 .f32) (v36 : FVec Ideal S4x256x128 .f32)
    (v37 : FVec Ideal S4x256 .f32) (b : Fin 4) (c : Fin 256) (h : Fin 512) :
    k0_pay1 (F := Ideal) v3 v29 v36 v37 (ix3 b c h)
      = ∑ q : Fin 128, (Ideal.div (Ideal.exp (v36 (ix3 b c q) - v37 (ix2 b c)))
            (∑ q' : Fin 128, Ideal.exp (v36 (ix3 b c q') - v37 (ix2 b c))) * v29 (ix3 b c q)) * v3 (ix3 b q h) := by
  unfold k0_pay1
  refine (matmul_attendC_apply _ _ b c h).trans ?_
  refine Finset.sum_congr rfl fun q _ => ?_
  refine congrArg₂ (· * ·) ?_ (truncf_apply (ψ := .bf16) _ bitsLt_bf16_f32 _)
  refine (truncf_apply (ψ := .bf16) _ bitsLt_bf16_f32 _).trans ?_
  refine (mulf_apply _ _ _).trans ?_
  refine congrArg₂ (· * ·) ?_ rfl
  refine (divf_apply _ _ _).trans ?_
  refine congrArg₂ Ideal.div (expShiftC_apply v36 v37 b c q) ?_
  rw [broadcastTo_ma1_man_apply, shapeCast_ma_ma1_apply]
  refine (multiReduction_add_axis2_apply _ _ _ _ _ b c).trans ?_
  exact Finset.sum_congr rfl fun q' _ => expShiftC_apply v36 v37 b c q'

/-! ## Along the context axis -/

/-- The exponential of the logits lowered by their maximum along the context axis, at `(b, c, q)`. -/
theorem expShiftQ_apply (v36 : FVec Ideal S4x256x128 .f32) (b : Fin 4) (c : Fin 256) (q : Fin 128) :
    exp (subf v36 (broadcastTo S4x256x128
          (shapeCast S4x1x128 (multiReduction .maximumf [1] S4x128 v36 0xFF800000#32 reduces_S4x256x128_S4x128 (.inl rfl) rfl)
            shapeCasts_S4x128_S4x1x128) broadcasts_S4x1x128_S4x256x128)) (ix3 b c q)
      = Ideal.exp (v36 (ix3 b c q) - top (fun c' : Fin 256 => v36 (ix3 b c' q))) := by
  show Ideal.exp (subf v36 (broadcastTo S4x256x128
          (shapeCast S4x1x128 (multiReduction .maximumf [1] S4x128 v36 0xFF800000#32 reduces_S4x256x128_S4x128 (.inl rfl) rfl)
            shapeCasts_S4x128_S4x1x128) broadcasts_S4x1x128_S4x256x128) (ix3 b c q)) = _
  refine congrArg Ideal.exp ?_
  refine (subf_apply _ _ _).trans ?_
  refine congrArg₂ (· - ·) rfl ?_
  rw [broadcastTo_m1b_mab_apply, shapeCast_mb_m1b_apply]
  exact multiReduction_maximumf_axis1_apply v36 _ _ _ _ b q

/-- What the body stores in its second output block, at `(b, q, h)`. -/
theorem pay2_apply (v1 : FVec Ideal S4x256x512 .f32) (v29 : FVec Ideal S4x256x128 .f32) (v36 : FVec Ideal S4x256x128 .f32)
    (b : Fin 4) (q : Fin 128) (h : Fin 512) :
    k0_pay2 (F := Ideal) v1 v29 v36 (ix3 b q h)
      = ∑ c : Fin 256, (Ideal.div (Ideal.exp (v36 (ix3 b c q) - top (fun c' : Fin 256 => v36 (ix3 b c' q))))
            (∑ c'' : Fin 256, Ideal.exp (v36 (ix3 b c'' q) - top (fun c' : Fin 256 => v36 (ix3 b c' q)))) * v29 (ix3 b c q))
          * v1 (ix3 b c h) := by
  unfold k0_pay2
  refine (matmul_attendQ_apply _ _ b q h).trans ?_
  refine Finset.sum_congr rfl fun c _ => ?_
  refine congrArg₂ (· * ·) ?_ (truncf_apply (ψ := .bf16) _ bitsLt_bf16_f32 _)
  refine (truncf_apply (ψ := .bf16) _ bitsLt_bf16_f32 _).trans ?_
  refine (transpose_ix3_021_apply _ _ b q c).trans ?_
  refine (mulf_apply _ _ _).trans ?_
  refine congrArg₂ (· * ·) ?_ rfl
  refine (divf_apply _ _ _).trans ?_
  refine congrArg₂ Ideal.div (expShiftQ_apply v36 b c q) ?_
  rw [broadcastTo_m1b_mab_apply, shapeCast_mb_m1b_apply]
  refine (multiReduction_add_axis1_apply _ _ _ _ _ b q).trans ?_
  exact Finset.sum_congr rfl fun c'' _ => expShiftQ_apply v36 b c'' q

end Cert.KernelSoft

end
-- ==== Proof.KernelBlock.lean ====
/-
  What the kernel body leaves in each output block, entry by entry: block row `b` of the four output blocks is the
  attention block of row `b` of the four input blocks.
-/
import proofs.«123773_j1580547972585_1_alg».proof.Proof.Gen.KernelIdeal.Frame
import proofs.«123773_j1580547972585_1_alg».proof.Proof.Attention
import proofs.«123773_j1580547972585_1_alg».proof.Proof.KernelOut
import proofs.«123773_j1580547972585_1_alg».proof.Proof.KernelMask
import proofs.«123773_j1580547972585_1_alg».proof.Proof.KernelLogit
import proofs.«123773_j1580547972585_1_alg».proof.Proof.KernelSoft

noncomputable section

namespace Cert.KernelBlock

open Idealize.ShloMosaic Idealize.ShloMosaic.ValueIdx Cert.KernelIdeal Cert.KernelIdeal.Gen Cert.Attention
open Cert.KernelOut Cert.KernelMask Cert.KernelLogit Cert.KernelSoft

/-- Row `b` of each input block, as the attention block's four arguments. -/
abbrev rowC (x0 : Vec Ideal S4x256x512 .f32) (b : Fin 4) : Fin 256 → Fin 512 → EReal := fun c h => x0 (ix3 b c h)
abbrev rowQ (x1 : Vec Ideal S4x128x512 .f32) (b : Fin 4) : Fin 128 → Fin 512 → EReal := fun q h => x1 (ix3 b q h)
abbrev rowCm (x2 : Vec Ideal S4x256x1 .f32) (b : Fin 4) : Fin 256 → EReal := fun c => x2 (ix3 b c (0 : Fin 1))
abbrev rowQm (x3 : Vec Ideal S4x1x128 .f32) (b : Fin 4) : Fin 128 → EReal := fun q => x3 (ix3 b (0 : Fin 1) q)

theorem attendC_block (x0 : Vec Ideal S4x256x512 .f32) (x1 : Vec Ideal S4x128x512 .f32) (x2 : Vec Ideal S4x256x1 .f32)
    (x3 : Vec Ideal S4x1x128 .f32) (b : Fin 4) (c : Fin 256) (h : Fin 512) :
    out0_4 (F := Ideal) x0 x1 x2 x3 (ix3 b c h) = attendC (rowC x0 b) (rowQ x1 b) (rowCm x2 b) (rowQm x3 b) c h := by
  -- the stored product at (b, c, h), over the body's logits, their row maxima, the mask product and the query rows
  rw [out0_4_eq, pay1_apply]
  -- the logits are the block's, and so are their maxima along the query axis
  have hL : ∀ q' : Fin 128, k0_pay7 (F := Ideal) x0 x1 x2 x3 (ix3 b c q')
      = logit (rowC x0 b) (rowQ x1 b) (rowCm x2 b) (rowQm x3 b) c q' := fun q' => pay7_apply x0 x1 x2 x3 b c q'
  have hT : k0_pay8 (F := Ideal) x0 x1 x2 x3 (ix2 b c)
      = top (fun q' : Fin 128 => logit (rowC x0 b) (rowQ x1 b) (rowCm x2 b) (rowQm x3 b) c q') :=
    (pay8_apply x0 x1 x2 x3 b c).trans (congrArg top (funext hL))
  rw [hT]
  simp only [hL]
  unfold attendC weightC soft
  refine Finset.sum_congr rfl fun q _ => ?_
  refine congrArg₂ (· * ·) (congrArg₂ (· * ·) rfl (pay6_apply x2 x3 b c q)) ?_
  unfold k0_pay5
  rw [shapeCast_self]

theorem attendQ_block (x0 : Vec Ideal S4x256x512 .f32) (x1 : Vec Ideal S4x128x512 .f32) (x2 : Vec Ideal S4x256x1 .f32)
    (x3 : Vec Ideal S4x1x128 .f32) (b : Fin 4) (q : Fin 128) (h : Fin 512) :
    out0_5 (F := Ideal) x0 x1 x2 x3 (ix3 b q h) = attendQ (rowC x0 b) (rowQ x1 b) (rowCm x2 b) (rowQm x3 b) q h := by
  -- the stored product at (b, q, h), over the body's logits, the mask product and the context rows
  rw [out0_5_eq, pay2_apply]
  have hL : ∀ c' : Fin 256, k0_pay7 (F := Ideal) x0 x1 x2 x3 (ix3 b c' q)
      = logit (rowC x0 b) (rowQ x1 b) (rowCm x2 b) (rowQm x3 b) c' q := fun c' => pay7_apply x0 x1 x2 x3 b c' q
  simp only [hL]
  unfold attendQ weightQ soft
  refine Finset.sum_congr rfl fun c _ => ?_
  refine congrArg₂ (· * ·) (congrArg₂ (· * ·) rfl (pay6_apply x2 x3 b c q)) ?_
  unfold k0_pay4
  rw [shapeCast_self]

theorem mask_block (x0 : Vec Ideal S4x256x512 .f32) (x1 : Vec Ideal S4x128x512 .f32) (x2 : Vec Ideal S4x256x1 .f32)
    (x3 : Vec Ideal S4x1x128 .f32) (b : Fin 4) (c : Fin 256) (q : Fin 128) :
    out0_6 (F := Ideal) x0 x1 x2 x3 (ix3 b c q) = mask (rowCm x2 b) (rowQm x3 b) c q := by
  rw [out0_6_eq]
  exact pay6_apply x2 x3 b c q

theorem maskT_block (x0 : Vec Ideal S4x256x512 .f32) (x1 : Vec Ideal S4x128x512 .f32) (x2 : Vec Ideal S4x256x1 .f32)
    (x3 : Vec Ideal S4x1x128 .f32) (b : Fin 4) (q : Fin 128) (c : Fin 256) :
    out0_7 (F := Ideal) x0 x1 x2 x3 (ix3 b q c) = mask (rowCm x2 b) (rowQm x3 b) c q := by
  rw [out0_7_eq]
  exact (pay3_apply _ b q c).trans (pay6_apply x2 x3 b c q)

end Cert.KernelBlock

end
-- ==== Proof.KernelWindows.lean ====
/-
  Where the windows sit.  The grid has 128 points; at point `t` every window's block is the four consecutive
  attention blocks `4t, 4t+1, 4t+2, 4t+3` of its array, whole along the other two axes.  So entry `(b, r, s)` of a
  block at point `t` is entry `(4t + b, r, s)` of the array, and every entry `(n, r, s)` of an array lies in the block
  of point `n / 4`: the output blocks tile their arrays.
-/
import proofs.«123773_j1580547972585_1_alg».proof.Proof.Gen.KernelIdeal.Frame
import Idealize.ShloMosaic.Lib.Pipeline.Value
import Idealize.ShloMosaic.Lib.ValueIdx

set_option maxRecDepth 16384

noncomputable section

namespace Cert.KernelWindows

open Cert.KernelIdeal Cert.KernelIdeal.Gen Idealize.ShloMosaic Idealize.ShloMosaic.TcCoe Idealize.SL.Sem
open Idealize.ShloMosaic.ValueIdx

/-- The grid's points are 128. -/
theorem point_lt (t : Fin cfg0.N) : t.val < 128 := t.isLt

/-- The first attention block of point `t`, offset by `b`. -/
def blockAt (t : Fin cfg0.N) (b : Fin 4) : Fin 512 :=
  ⟨4 * t.val + b.val, by have := point_lt t; have := b.isLt; omega⟩

theorem blockAt_val (t : Fin cfg0.N) (b : Fin 4) : (blockAt t b).val = 4 * t.val + b.val := rfl

/-! ## The index maps, decided over the grid -/

theorem index0 : ∀ t : Fin cfg0.N,
    win0_0.index t (0 : Fin 3) = t.val ∧ win0_0.index t (1 : Fin 3) = 0 ∧ win0_0.index t (2 : Fin 3) = 0 :=
  (by decide +kernel : ∀ t : Fin grid0.N, _)

theorem index1 : ∀ t : Fin cfg0.N,
    win0_1.index t (0 : Fin 3) = t.val ∧ win0_1.index t (1 : Fin 3) = 0 ∧ win0_1.index t (2 : Fin 3) = 0 :=
  (by decide +kernel : ∀ t : Fin grid0.N, _)

theorem index2 : ∀ t : Fin cfg0.N,
    win0_2.index t (0 : Fin 3) = t.val ∧ win0_2.index t (1 : Fin 3) = 0 ∧ win0_2.index t (2 : Fin 3) = 0 :=
  (by decide +kernel : ∀ t : Fin grid0.N, _)

theorem index3 : ∀ t : Fin cfg0.N,
    win0_3.index t (0 : Fin 3) = t.val ∧ win0_3.index t (1 : Fin 3) = 0 ∧ win0_3.index t (2 : Fin 3) = 0 :=
  (by decide +kernel : ∀ t : Fin grid0.N, _)

theorem index4 : ∀ t : Fin cfg0.N,
    win0_4.index t (0 : Fin 3) = t.val ∧ win0_4.index t (1 : Fin 3) = 0 ∧ win0_4.index t (2 : Fin 3) = 0 :=
  (by decide +kernel : ∀ t : Fin grid0.N, _)

theorem index5 : ∀ t : Fin cfg0.N,
    win0_5.index t (0 : Fin 3) = t.val ∧ win0_5.index t (1 : Fin 3) = 0 ∧ win0_5.index t (2 : Fin 3) = 0 :=
  (by decide +kernel : ∀ t : Fin grid0.N, _)

theorem index6 : ∀ t : Fin cfg0.N,
    win0_6.index t (0 : Fin 3) = t.val ∧ win0_6.index t (1 : Fin 3) = 0 ∧ win0_6.index t (2 : Fin 3) = 0 :=
  (by decide +kernel : ∀ t : Fin grid0.N, _)

theorem index7 : ∀ t : Fin cfg0.N,
    win0_7.index t (0 : Fin 3) = t.val ∧ win0_7.index t (1 : Fin 3) = 0 ∧ win0_7.index t (2 : Fin 3) = 0 :=
  (by decide +kernel : ∀ t : Fin grid0.N, _)

/-! ## An input block's entry is the array's -/

variable {F : FTy → Type} [FloatOps F]
variable (m : (ℓ : Loc nD τ sig) → Buf (Elt F) ℓ)

theorem iblk0_apply (c : Dev nD) (t : Fin cfg0.N) (b : Fin 4) (r : Fin 256) (s : Fin 512) :
    iblk m c 0 t (ix3 b r s) = V m c main_v0 (ix3 (blockAt t b) r s) := by
  show V m c main_v0 (((cfg0.win 0).blk t).view.emb (ix3 b r s)) = _
  refine congrArg (V m c main_v0) (funext fun a => Fin.ext ?_)
  obtain ⟨e0, e1, e2⟩ := index0 t
  match a with
  | ⟨0, _⟩ => show win0_0.index t (0 : Fin 3) * 4 + 1 * b.val = 4 * t.val + b.val; omega
  | ⟨1, _⟩ => show win0_0.index t (1 : Fin 3) * 256 + 1 * r.val = r.val; omega
  | ⟨2, _⟩ => show win0_0.index t (2 : Fin 3) * 512 + 1 * s.val = s.val; omega

theorem iblk1_apply (c : Dev nD) (t : Fin cfg0.N) (b : Fin 4) (r : Fin 128) (s : Fin 512) :
    iblk m c 1 t (ix3 b r s) = V m c main_v1 (ix3 (blockAt t b) r s) := by
  show V m c main_v1 (((cfg0.win 1).blk t).view.emb (ix3 b r s)) = _
  refine congrArg (V m c main_v1) (funext fun a => Fin.ext ?_)
  obtain ⟨e0, e1, e2⟩ := index1 t
  match a with
  | ⟨0, _⟩ => show win0_1.index t (0 : Fin 3) * 4 + 1 * b.val = 4 * t.val + b.val; omega
  | ⟨1, _⟩ => show win0_1.index t (1 : Fin 3) * 128 + 1 * r.val = r.val; omega
  | ⟨2, _⟩ => show win0_1.index t (2 : Fin 3) * 512 + 1 * s.val = s.val; omega

theorem iblk2_apply (c : Dev nD) (t : Fin cfg0.N) (b : Fin 4) (r : Fin 256) :
    iblk m c 2 t (ix3 b r (0 : Fin 1)) = V m c main_v2 (ix3 (blockAt t b) r (0 : Fin 1)) := by
  show V m c main_v2 (((cfg0.win 2).blk t).view.emb (ix3 b r (0 : Fin 1))) = _
  refine congrArg (V m c main_v2) (funext fun a => Fin.ext ?_)
  obtain ⟨e0, e1, e2⟩ := index2 t
  match a with
  | ⟨0, _⟩ => show win0_2.index t (0 : Fin 3) * 4 + 1 * b.val = 4 * t.val + b.val; omega
  | ⟨1, _⟩ => show win0_2.index t (1 : Fin 3) * 256 + 1 * r.val = r.val; omega
  | ⟨2, _⟩ => show win0_2.index t (2 : Fin 3) * 1 + 1 * 0 = 0; omega

theorem iblk3_apply (c : Dev nD) (t : Fin cfg0.N) (b : Fin 4) (s : Fin 128) :
    iblk m c 3 t (ix3 b (0 : Fin 1) s) = V m c main_v3 (ix3 (blockAt t b) (0 : Fin 1) s) := by
  show V m c main_v3 (((cfg0.win 3).blk t).view.emb (ix3 b (0 : Fin 1) s)) = _
  refine congrArg (V m c main_v3) (funext fun a => Fin.ext ?_)
  obtain ⟨e0, e1, e2⟩ := index3 t
  match a with
  | ⟨0, _⟩ => show win0_3.index t (0 : Fin 3) * 4 + 1 * b.val = 4 * t.val + b.val; omega
  | ⟨1, _⟩ => show win0_3.index t (1 : Fin 3) * 1 + 1 * 0 = 0; omega
  | ⟨2, _⟩ => show win0_3.index t (2 : Fin 3) * 128 + 1 * s.val = s.val; omega

/-! ## An output block's entry sits at the array's entry, and the output blocks tile their arrays -/

theorem emb4 (t : Fin cfg0.N) (b : Fin 4) (r : Fin 256) (s : Fin 512) :
    ((cfg0.win 4).blk t).view.emb (ix3 b r s) = (ix3 (blockAt t b) r s : S512x256x512.Idx) := by
  refine funext fun a => Fin.ext ?_
  obtain ⟨e0, e1, e2⟩ := index4 t
  match a with
  | ⟨0, _⟩ => show win0_4.index t (0 : Fin 3) * 4 + 1 * b.val = 4 * t.val + b.val; omega
  | ⟨1, _⟩ => show win0_4.index t (1 : Fin 3) * 256 + 1 * r.val = r.val; omega
  | ⟨2, _⟩ => show win0_4.index t (2 : Fin 3) * 512 + 1 * s.val = s.val; omega

theorem mem_blk4 (t : Fin cfg0.N) (i : S512x256x512.Idx) :
    i ∈ ((cfg0.win 4).blk t).view.set ↔ ∀ a : Fin 3, win0_4.index t a * S4x256x512.size a ≤ (i a).val
      ∧ (i a).val < win0_4.index t a * S4x256x512.size a + S4x256x512.size a := by
  show i ∈ ((View.whole main_v4_0).slice (win0_4.rect t)).set ↔ _
  rw [View.set_slice_whole, Rect.mem_set_unit]
  exact Iff.rfl

theorem cover4 (i : S512x256x512.Idx) :
    ∃ t : Fin cfg0.N, (cfg0.win 4).flush t = true ∧ i ∈ ((cfg0.win 4).blk t).view.set := by
  have hi0 : (i 0).val < 512 := (i 0).isLt
  have hi1 : (i 1).val < 256 := (i 1).isLt
  have hi2 : (i 2).val < 512 := (i 2).isLt
  obtain ⟨t, ht⟩ : ∃ t : Fin cfg0.N, t.val = (i 0).val / 4 :=
    ⟨⟨(i 0).val / 4, by show (i 0).val / 4 < grid0.N; rw [N_0]; omega⟩, rfl⟩
  refine ⟨t, flush0_4 t, ?_⟩
  rw [mem_blk4]
  obtain ⟨e0, e1, e2⟩ := index4 t
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 256 ≤ (i 1).val ∧ (i 1).val < win0_4.index t (1 : Fin 3) * 256 + 256; omega
  | ⟨2, _⟩ => show win0_4.index t (2 : Fin 3) * 512 ≤ (i 2).val ∧ (i 2).val < win0_4.index t (2 : Fin 3) * 512 + 512; omega

theorem emb5 (t : Fin cfg0.N) (b : Fin 4) (r : Fin 128) (s : Fin 512) :
    ((cfg0.win 5).blk t).view.emb (ix3 b r s) = (ix3 (blockAt t b) r s : S512x128x512.Idx) := by
  refine funext fun a => Fin.ext ?_
  obtain ⟨e0, e1, e2⟩ := index5 t
  match a with
  | ⟨0, _⟩ => show win0_5.index t (0 : Fin 3) * 4 + 1 * b.val = 4 * t.val + b.val; omega
  | ⟨1, _⟩ => show win0_5.index t (1 : Fin 3) * 128 + 1 * r.val = r.val; omega
  | ⟨2, _⟩ => show win0_5.index t (2 : Fin 3) * 512 + 1 * s.val = s.val; omega

theorem mem_blk5 (t : Fin cfg0.N) (i : S512x128x512.Idx) :
    i ∈ ((cfg0.win 5).blk t).view.set ↔ ∀ a : Fin 3, win0_5.index t a * S4x128x512.size a ≤ (i a).val
      ∧ (i a).val < win0_5.index t a * S4x128x512.size a + S4x128x512.size a := by
  show i ∈ ((View.whole main_v4_1).slice (win0_5.rect t)).set ↔ _
  rw [View.set_slice_whole, Rect.mem_set_unit]
  exact Iff.rfl

theorem cover5 (i : S512x128x512.Idx) :
    ∃ t : Fin cfg0.N, (cfg0.win 5).flush t = true ∧ i ∈ ((cfg0.win 5).blk t).view.set := by
  have hi0 : (i 0).val < 512 := (i 0).isLt
  have hi1 : (i 1).val < 128 := (i 1).isLt
  have hi2 : (i 2).val < 512 := (i 2).isLt
  obtain ⟨t, ht⟩ : ∃ t : Fin cfg0.N, t.val = (i 0).val / 4 :=
    ⟨⟨(i 0).val / 4, by show (i 0).val / 4 < grid0.N; rw [N_0]; omega⟩, rfl⟩
  refine ⟨t, flush0_5 t, ?_⟩
  rw [mem_blk5]
  obtain ⟨e0, e1, e2⟩ := index5 t
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 128 ≤ (i 1).val ∧ (i 1).val < win0_5.index t (1 : Fin 3) * 128 + 128; omega
  | ⟨2, _⟩ => show win0_5.index t (2 : Fin 3) * 512 ≤ (i 2).val ∧ (i 2).val < win0_5.index t (2 : Fin 3) * 512 + 512; omega

theorem emb6 (t : Fin cfg0.N) (b : Fin 4) (r : Fin 256) (s : Fin 128) :
    ((cfg0.win 6).blk t).view.emb (ix3 b r s) = (ix3 (blockAt t b) r s : S512x256x128.Idx) := by
  refine funext fun a => Fin.ext ?_
  obtain ⟨e0, e1, e2⟩ := index6 t
  match a with
  | ⟨0, _⟩ => show win0_6.index t (0 : Fin 3) * 4 + 1 * b.val = 4 * t.val + b.val; omega
  | ⟨1, _⟩ => show win0_6.index t (1 : Fin 3) * 256 + 1 * r.val = r.val; omega
  | ⟨2, _⟩ => show win0_6.index t (2 : Fin 3) * 128 + 1 * s.val = s.val; omega

theorem mem_blk6 (t : Fin cfg0.N) (i : S512x256x128.Idx) :
    i ∈ ((cfg0.win 6).blk t).view.set ↔ ∀ a : Fin 3, win0_6.index t a * S4x256x128.size a ≤ (i a).val
      ∧ (i a).val < win0_6.index t a * S4x256x128.size a + S4x256x128.size a := by
  show i ∈ ((View.whole main_v4_2).slice (win0_6.rect t)).set ↔ _
  rw [View.set_slice_whole, Rect.mem_set_unit]
  exact Iff.rfl

theorem cover6 (i : S512x256x128.Idx) :
    ∃ t : Fin cfg0.N, (cfg0.win 6).flush t = true ∧ i ∈ ((cfg0.win 6).blk t).view.set := by
  have hi0 : (i 0).val < 512 := (i 0).isLt
  have hi1 : (i 1).val < 256 := (i 1).isLt
  have hi2 : (i 2).val < 128 := (i 2).isLt
  obtain ⟨t, ht⟩ : ∃ t : Fin cfg0.N, t.val = (i 0).val / 4 :=
    ⟨⟨(i 0).val / 4, by show (i 0).val / 4 < grid0.N; rw [N_0]; omega⟩, rfl⟩
  refine ⟨t, flush0_6 t, ?_⟩
  rw [mem_blk6]
  obtain ⟨e0, e1, e2⟩ := index6 t
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 256 ≤ (i 1).val ∧ (i 1).val < win0_6.index t (1 : Fin 3) * 256 + 256; omega
  | ⟨2, _⟩ => show win0_6.index t (2 : Fin 3) * 128 ≤ (i 2).val ∧ (i 2).val < win0_6.index t (2 : Fin 3) * 128 + 128; omega

theorem emb7 (t : Fin cfg0.N) (b : Fin 4) (r : Fin 128) (s : Fin 256) :
    ((cfg0.win 7).blk t).view.emb (ix3 b r s) = (ix3 (blockAt t b) r s : S512x128x256.Idx) := by
  refine funext fun a => Fin.ext ?_
  obtain ⟨e0, e1, e2⟩ := index7 t
  match a with
  | ⟨0, _⟩ => show win0_7.index t (0 : Fin 3) * 4 + 1 * b.val = 4 * t.val + b.val; omega
  | ⟨1, _⟩ => show win0_7.index t (1 : Fin 3) * 128 + 1 * r.val = r.val; omega
  | ⟨2, _⟩ => show win0_7.index t (2 : Fin 3) * 256 + 1 * s.val = s.val; omega

theorem mem_blk7 (t : Fin cfg0.N) (i : S512x128x256.Idx) :
    i ∈ ((cfg0.win 7).blk t).view.set ↔ ∀ a : Fin 3, win0_7.index t a * S4x128x256.size a ≤ (i a).val
      ∧ (i a).val < win0_7.index t a * S4x128x256.size a + S4x128x256.size a := by
  show i ∈ ((View.whole main_v4_3).slice (win0_7.rect t)).set ↔ _
  rw [View.set_slice_whole, Rect.mem_set_unit]
  exact Iff.rfl

theorem cover7 (i : S512x128x256.Idx) :
    ∃ t : Fin cfg0.N, (cfg0.win 7).flush t = true ∧ i ∈ ((cfg0.win 7).blk t).view.set := by
  have hi0 : (i 0).val < 512 := (i 0).isLt
  have hi1 : (i 1).val < 128 := (i 1).isLt
  have hi2 : (i 2).val < 256 := (i 2).isLt
  obtain ⟨t, ht⟩ : ∃ t : Fin cfg0.N, t.val = (i 0).val / 4 :=
    ⟨⟨(i 0).val / 4, by show (i 0).val / 4 < grid0.N; rw [N_0]; omega⟩, rfl⟩
  refine ⟨t, flush0_7 t, ?_⟩
  rw [mem_blk7]
  obtain ⟨e0, e1, e2⟩ := index7 t
  intro a
  match a with
  | ⟨0, _⟩ => show win0_7.index t (0 : Fin 3) * 4 ≤ (i 0).val ∧ (i 0).val < win0_7.index t (0 : Fin 3) * 4 + 4; omega
  | ⟨1, _⟩ => show win0_7.index t (1 : Fin 3) * 128 ≤ (i 1).val ∧ (i 1).val < win0_7.index t (1 : Fin 3) * 128 + 128; omega
  | ⟨2, _⟩ => show win0_7.index t (2 : Fin 3) * 256 ≤ (i 2).val ∧ (i 2).val < win0_7.index t (2 : Fin 3) * 256 + 256; omega

end Cert.KernelWindows

end
-- ==== Proof.KernelRegion.lean ====
/-
  What the region leaves in its four output arrays.

  At grid point `t` the body turns rows `b = 0 … 3` of the four input blocks into rows `b` of the four output blocks,
  one attention block each; the input blocks are attention blocks `4t + b` of the arrays the region finds, and the
  output blocks are written back to attention blocks `4t + b` of the output arrays.  The output blocks tile their arrays,
  so each output array ends as the attention function, block by block, of the four arrays the region finds.
-/
import proofs.«123773_j1580547972585_1_alg».proof.Proof.KernelBlock
import proofs.«123773_j1580547972585_1_alg».proof.Proof.KernelWindows

set_option maxRecDepth 16384

noncomputable section

namespace Cert.KernelRegion

open Cert.KernelIdeal Cert.KernelIdeal.Gen Idealize.ShloMosaic Idealize.ShloMosaic.TcCoe Idealize.SL.Sem
open Idealize.ShloMosaic.ValueIdx Cert.Attention Cert.KernelBlock Cert.KernelWindows
open Idealize.ShloMosaic.Pipeline (Dat)

variable (m : (ℓ : Loc nD τ sig) → Buf (Elt Ideal) ℓ)

/-! ## Row `b` of the input blocks at point `t` is attention block `4t + b` of the arrays -/

theorem rowC_iblk (c : Dev nD) (t : Fin cfg0.N) (b : Fin 4) :
    rowC (iblk m c 0 t) b = blkC (V m c main_v0) (blockAt t b) :=
  funext fun r => funext fun s => iblk0_apply m c t b r s

theorem rowQ_iblk (c : Dev nD) (t : Fin cfg0.N) (b : Fin 4) :
    rowQ (iblk m c 1 t) b = blkQ (V m c main_v1) (blockAt t b) :=
  funext fun r => funext fun s => iblk1_apply m c t b r s

theorem rowCm_iblk (c : Dev nD) (t : Fin cfg0.N) (b : Fin 4) :
    rowCm (iblk m c 2 t) b = blkCm (V m c main_v2) (blockAt t b) :=
  funext fun r => iblk2_apply m c t b r

theorem rowQm_iblk (c : Dev nD) (t : Fin cfg0.N) (b : Fin 4) :
    rowQm (iblk m c 3 t) b = blkQm (V m c main_v3) (blockAt t b) :=
  funext fun s => iblk3_apply m c t b s

/-! ## What a point writes back, and the arrays after the last point -/

theorem flushed4_eq (c : Dev nD) (t : Fin cfg0.N) :
    (dats m 0 c).flushed 4 t = ((cfg0.win 4).blk t).view.read (Elt Ideal)
      (HattendC (V m c main_v0) (V m c main_v1) (V m c main_v2) (V m c main_v3)) := by
  show (cfg0.win 4).cut (grid0.coords t) ((dats m 0 c).after 4 t) = _
  rw [after0_4]
  refine funext fun (j : S4x256x512.Idx) => ?_
  obtain ⟨b, r, s, rfl⟩ : ∃ (b : Fin 4) (r : Fin 256) (s : Fin 512), j = ix3 b r s := ⟨j 0, j 1, j 2, eq_ix3 j⟩
  show out0_4 (iblk m c 0 t) (iblk m c 1 t) (iblk m c 2 t) (iblk m c 3 t) (ix3 b r s)
    = HattendC (V m c main_v0) (V m c main_v1) (V m c main_v2) (V m c main_v3) (((cfg0.win 4).blk t).view.emb (ix3 b r s))
  rw [emb4 t b r s]
  refine (attendC_block (iblk m c 0 t) (iblk m c 1 t) (iblk m c 2 t) (iblk m c 3 t) b r s).trans ?_
  rw [rowC_iblk, rowQ_iblk, rowCm_iblk, rowQm_iblk]
  rfl

theorem final4 (c : Dev nD) :
    (dats m 0 c).arrAt 4 cfg0.N = HattendC (V m c main_v0) (V m c main_v1) (V m c main_v2) (V m c main_v3) :=
  (dats m 0 c).arrAt_eq_of_cover 4 _ (fun t _ => flushed4_eq m c t) cover4

theorem flushed5_eq (c : Dev nD) (t : Fin cfg0.N) :
    (dats m 0 c).flushed 5 t = ((cfg0.win 5).blk t).view.read (Elt Ideal)
      (HattendQ (V m c main_v0) (V m c main_v1) (V m c main_v2) (V m c main_v3)) := by
  show (cfg0.win 5).cut (grid0.coords t) ((dats m 0 c).after 5 t) = _
  rw [after0_5]
  refine funext fun (j : S4x128x512.Idx) => ?_
  obtain ⟨b, r, s, rfl⟩ : ∃ (b : Fin 4) (r : Fin 128) (s : Fin 512), j = ix3 b r s := ⟨j 0, j 1, j 2, eq_ix3 j⟩
  show out0_5 (iblk m c 0 t) (iblk m c 1 t) (iblk m c 2 t) (iblk m c 3 t) (ix3 b r s)
    = HattendQ (V m c main_v0) (V m c main_v1) (V m c main_v2) (V m c main_v3) (((cfg0.win 5).blk t).view.emb (ix3 b r s))
  rw [emb5 t b r s]
  refine (attendQ_block (iblk m c 0 t) (iblk m c 1 t) (iblk m c 2 t) (iblk m c 3 t) b r s).trans ?_
  rw [rowC_iblk, rowQ_iblk, rowCm_iblk, rowQm_iblk]
  rfl

theorem final5 (c : Dev nD) :
    (dats m 0 c).arrAt 5 cfg0.N = HattendQ (V m c main_v0) (V m c main_v1) (V m c main_v2) (V m c main_v3) :=
  (dats m 0 c).arrAt_eq_of_cover 5 _ (fun t _ => flushed5_eq m c t) cover5

theorem flushed6_eq (c : Dev nD) (t : Fin cfg0.N) :
    (dats m 0 c).flushed 6 t = ((cfg0.win 6).blk t).view.read (Elt Ideal)
      (Hmask (V m c main_v2) (V m c main_v3)) := by
  show (cfg0.win 6).cut (grid0.coords t) ((dats m 0 c).after 6 t) = _
  rw [after0_6]
  refine funext fun (j : S4x256x128.Idx) => ?_
  obtain ⟨b, r, s, rfl⟩ : ∃ (b : Fin 4) (r : Fin 256) (s : Fin 128), j = ix3 b r s := ⟨j 0, j 1, j 2, eq_ix3 j⟩
  show out0_6 (iblk m c 0 t) (iblk m c 1 t) (iblk m c 2 t) (iblk m c 3 t) (ix3 b r s)
    = Hmask (V m c main_v2) (V m c main_v3) (((cfg0.win 6).blk t).view.emb (ix3 b r s))
  rw [emb6 t b r s]
  refine (mask_block (iblk m c 0 t) (iblk m c 1 t) (iblk m c 2 t) (iblk m c 3 t) b r s).trans ?_
  rw [rowCm_iblk, rowQm_iblk]
  rfl

theorem final6 (c : Dev nD) :
    (dats m 0 c).arrAt 6 cfg0.N = Hmask (V m c main_v2) (V m c main_v3) :=
  (dats m 0 c).arrAt_eq_of_cover 6 _ (fun t _ => flushed6_eq m c t) cover6

theorem flushed7_eq (c : Dev nD) (t : Fin cfg0.N) :
    (dats m 0 c).flushed 7 t = ((cfg0.win 7).blk t).view.read (Elt Ideal)
      (HmaskT (V m c main_v2) (V m c main_v3)) := by
  show (cfg0.win 7).cut (grid0.coords t) ((dats m 0 c).after 7 t) = _
  rw [after0_7]
  refine funext fun (j : S4x128x256.Idx) => ?_
  obtain ⟨b, r, s, rfl⟩ : ∃ (b : Fin 4) (r : Fin 128) (s : Fin 256), j = ix3 b r s := ⟨j 0, j 1, j 2, eq_ix3 j⟩
  show out0_7 (iblk m c 0 t) (iblk m c 1 t) (iblk m c 2 t) (iblk m c 3 t) (ix3 b r s)
    = HmaskT (V m c main_v2) (V m c main_v3) (((cfg0.win 7).blk t).view.emb (ix3 b r s))
  rw [emb7 t b r s]
  refine (maskT_block (iblk m c 0 t) (iblk m c 1 t) (iblk m c 2 t) (iblk m c 3 t) b r s).trans ?_
  rw [rowCm_iblk, rowQm_iblk]
  rfl

theorem final7 (c : Dev nD) :
    (dats m 0 c).arrAt 7 cfg0.N = HmaskT (V m c main_v2) (V m c main_v3) :=
  (dats m 0 c).arrAt_eq_of_cover 7 _ (fun t _ => flushed7_eq m c t) cover7

end Cert.KernelRegion

end
-- ==== Proof.Flatten.lean ====
/-
  Flattening the three leading axes 16 × 4 × 8 into one axis of 512 blocks.

  Block `(a, b, d)` sits at position `(4a + b)·8 + d`.  A reshape keeps the row-major position of every entry, so
  reading the flattened array at block `flat a b d` is reading the given array at block `(a, b, d)`, and back.  Hence
  the attention functions over the flattened arrays, unflattened again, are the attention functions over the arrays
  as given: each block is computed from the same block of the arguments either way.
-/
import Idealize.ShloMosaic.Lib.Pipeline.Value
import Idealize.ShloMosaic.Lib.ValueIdx
import proofs.«123773_j1580547972585_1_alg».proof.Proof.Attention

noncomputable section

namespace Cert.Flatten

open Idealize.ShloMosaic Idealize.ShloMosaic.ValueIdx Cert.Attention

/-- The position of block `(a, b, d)` among the 512 blocks. -/
def flat (a : Fin 16) (b : Fin 4) (d : Fin 8) : Fin 512 :=
  ⟨(a.val * 4 + b.val) * 8 + d.val, by have := a.isLt; have := b.isLt; have := d.isLt; omega⟩

theorem flat_val (a : Fin 16) (b : Fin 4) (d : Fin 8) : (flat a b d).val = (a.val * 4 + b.val) * 8 + d.val := rfl

/-- Every position is some block's. -/
theorem exists_flat (n : Fin 512) : ∃ (a : Fin 16) (b : Fin 4) (d : Fin 8), n = flat a b d :=
  ⟨⟨n.val / 32, by have := n.isLt; omega⟩, ⟨n.val / 8 % 4, by omega⟩, ⟨n.val % 8, by omega⟩,
    Fin.ext (by rw [flat_val]; show n.val = (n.val / 32 * 4 + n.val / 8 % 4) * 8 + n.val % 8; omega)⟩

variable {α : Type}

/-- A rank-5 array flattened, read at block `flat a b d`. -/
theorem flatten5_apply {A B : ℕ} (X : (⟨5, ![16, 4, 8, A, B]⟩ : Shape).Idx → α)
    (h : (⟨5, ![16, 4, 8, A, B]⟩ : Shape).ShapeCasts ⟨3, ![512, A, B]⟩) (a : Fin 16) (b : Fin 4) (d : Fin 8)
    (r : Fin A) (s : Fin B) :
    shapeCast ⟨3, ![512, A, B]⟩ X h (ix3 (flat a b d) r s) = X (ix5 a b d r s) :=
  shapeCast_apply X h _ _ (by
    rw [Shape.rowMajor_val_five, Shape.rowMajor_val_three]
    show ((((a.val * 4 + b.val) * 8 + d.val) * A + r.val) * B + s.val)
      = (((a.val * 4 + b.val) * 8 + d.val) * A + r.val) * B + s.val
    rfl)

/-- A flattened rank-3 array given its three leading axes back, read at block `(a, b, d)`. -/
theorem unflatten5_apply {A B : ℕ} (Y : (⟨3, ![512, A, B]⟩ : Shape).Idx → α)
    (h : (⟨3, ![512, A, B]⟩ : Shape).ShapeCasts ⟨5, ![16, 4, 8, A, B]⟩) (a : Fin 16) (b : Fin 4) (d : Fin 8)
    (r : Fin A) (s : Fin B) :
    shapeCast ⟨5, ![16, 4, 8, A, B]⟩ Y h (ix5 a b d r s) = Y (ix3 (flat a b d) r s) :=
  shapeCast_apply Y h _ _ (by
    rw [Shape.rowMajor_val_five, Shape.rowMajor_val_three]
    show (((a.val * 4 + b.val) * 8 + d.val) * A + r.val) * B + s.val
      = ((((a.val * 4 + b.val) * 8 + d.val) * A + r.val) * B + s.val)
    rfl)

/-- The context mask flattened with a unit last axis, read at block `flat a b d`. -/
theorem flattenCol_apply {A : ℕ} (X : (⟨4, ![16, 4, 8, A]⟩ : Shape).Idx → α)
    (h : (⟨4, ![16, 4, 8, A]⟩ : Shape).ShapeCasts ⟨3, ![512, A, 1]⟩) (a : Fin 16) (b : Fin 4) (d : Fin 8) (r : Fin A) :
    shapeCast ⟨3, ![512, A, 1]⟩ X h (ix3 (flat a b d) r (0 : Fin 1)) = X (ix4 a b d r) :=
  shapeCast_apply X h _ _ (by
    rw [Shape.rowMajor_val_four, Shape.rowMajor_val_three]
    show (((a.val * 4 + b.val) * 8 + d.val) * A + r.val) = (((a.val * 4 + b.val) * 8 + d.val) * A + r.val) * 1 + 0
    omega)

/-- The query mask flattened with a unit middle axis, read at block `flat a b d`. -/
theorem flattenRow_apply {B : ℕ} (X : (⟨4, ![16, 4, 8, B]⟩ : Shape).Idx → α)
    (h : (⟨4, ![16, 4, 8, B]⟩ : Shape).ShapeCasts ⟨3, ![512, 1, B]⟩) (a : Fin 16) (b : Fin 4) (d : Fin 8) (s : Fin B) :
    shapeCast ⟨3, ![512, 1, B]⟩ X h (ix3 (flat a b d) (0 : Fin 1) s) = X (ix4 a b d s) :=
  shapeCast_apply X h _ _ (by
    rw [Shape.rowMajor_val_four, Shape.rowMajor_val_three]
    show (((a.val * 4 + b.val) * 8 + d.val) * B + s.val) = (((a.val * 4 + b.val) * 8 + d.val) * 1 + 0) * B + s.val
    rw [Nat.mul_one, Nat.add_zero])

/-! ## Blocks of the flattened arguments are blocks of the arguments -/

section Blocks

variable (X0 : T16x4x8x256x512.Idx → EReal) (X1 : T16x4x8x128x512.Idx → EReal) (X2 : T16x4x8x256.Idx → EReal)
  (X3 : T16x4x8x128.Idx → EReal)
  (h0 : T16x4x8x256x512.ShapeCasts T512x256x512) (h1 : T16x4x8x128x512.ShapeCasts T512x128x512)
  (h2 : T16x4x8x256.ShapeCasts T512x256x1) (h3 : T16x4x8x128.ShapeCasts T512x1x128)
  (a : Fin 16) (b : Fin 4) (d : Fin 8)

theorem blkC_flatten : blkC (shapeCast T512x256x512 X0 h0) (flat a b d) = rowsC X0 a b d :=
  funext fun c => funext fun h => flatten5_apply X0 h0 a b d c h

theorem blkQ_flatten : blkQ (shapeCast T512x128x512 X1 h1) (flat a b d) = rowsQ X1 a b d :=
  funext fun q => funext fun h => flatten5_apply X1 h1 a b d q h

theorem blkCm_flatten : blkCm (shapeCast T512x256x1 X2 h2) (flat a b d) = rowsCm X2 a b d :=
  funext fun c => flattenCol_apply X2 h2 a b d c

theorem blkQm_flatten : blkQm (shapeCast T512x1x128 X3 h3) (flat a b d) = rowsQm X3 a b d :=
  funext fun q => flattenRow_apply X3 h3 a b d q

end Blocks

/-! ## The four results -/

section Results

variable (X0 : T16x4x8x256x512.Idx → EReal) (X1 : T16x4x8x128x512.Idx → EReal) (X2 : T16x4x8x256.Idx → EReal)
  (X3 : T16x4x8x128.Idx → EReal)
  (h0 : T16x4x8x256x512.ShapeCasts T512x256x512) (h1 : T16x4x8x128x512.ShapeCasts T512x128x512)
  (h2 : T16x4x8x256.ShapeCasts T512x256x1) (h3 : T16x4x8x128.ShapeCasts T512x1x128)

theorem attendC_unflatten (h4 : T512x256x512.ShapeCasts T16x4x8x256x512) :
    shapeCast T16x4x8x256x512 (HattendC (shapeCast T512x256x512 X0 h0) (shapeCast T512x128x512 X1 h1)
      (shapeCast T512x256x1 X2 h2) (shapeCast T512x1x128 X3 h3)) h4 = GattendC X0 X1 X2 X3 := by
  funext i
  obtain ⟨a, b, d, c, h, rfl⟩ : ∃ a b d c h, i = ix5 a b d c h := ⟨i 0, i 1, i 2, i 3, i 4, eq_ix5 i⟩
  rw [unflatten5_apply _ h4 a b d c h]
  show attendC (blkC _ (flat a b d)) (blkQ _ (flat a b d)) (blkCm _ (flat a b d)) (blkQm _ (flat a b d)) c h
    = attendC (rowsC X0 a b d) (rowsQ X1 a b d) (rowsCm X2 a b d) (rowsQm X3 a b d) c h
  rw [blkC_flatten, blkQ_flatten, blkCm_flatten, blkQm_flatten]

theorem attendQ_unflatten (h5 : T512x128x512.ShapeCasts T16x4x8x128x512) :
    shapeCast T16x4x8x128x512 (HattendQ (shapeCast T512x256x512 X0 h0) (shapeCast T512x128x512 X1 h1)
      (shapeCast T512x256x1 X2 h2) (shapeCast T512x1x128 X3 h3)) h5 = GattendQ X0 X1 X2 X3 := by
  funext i
  obtain ⟨a, b, d, q, h, rfl⟩ : ∃ a b d q h, i = ix5 a b d q h := ⟨i 0, i 1, i 2, i 3, i 4, eq_ix5 i⟩
  rw [unflatten5_apply _ h5 a b d q h]
  show attendQ (blkC _ (flat a b d)) (blkQ _ (flat a b d)) (blkCm _ (flat a b d)) (blkQm _ (flat a b d)) q h
    = attendQ (rowsC X0 a b d) (rowsQ X1 a b d) (rowsCm X2 a b d) (rowsQm X3 a b d) q h
  rw [blkC_flatten, blkQ_flatten, blkCm_flatten, blkQm_flatten]

theorem mask_unflatten (h6 : T512x256x128.ShapeCasts T16x4x8x256x128) :
    shapeCast T16x4x8x256x128 (Hmask (shapeCast T512x256x1 X2 h2) (shapeCast T512x1x128 X3 h3)) h6 = Gmask X2 X3 := by
  funext i
  obtain ⟨a, b, d, c, q, rfl⟩ : ∃ a b d c q, i = ix5 a b d c q := ⟨i 0, i 1, i 2, i 3, i 4, eq_ix5 i⟩
  rw [unflatten5_apply _ h6 a b d c q]
  show mask (blkCm _ (flat a b d)) (blkQm _ (flat a b d)) c q = mask (rowsCm X2 a b d) (rowsQm X3 a b d) c q
  rw [blkCm_flatten, blkQm_flatten]

theorem maskT_unflatten (h7 : T512x128x256.ShapeCasts T16x4x8x128x256) :
    shapeCast T16x4x8x128x256 (HmaskT (shapeCast T512x256x1 X2 h2) (shapeCast T512x1x128 X3 h3)) h7 = GmaskT X2 X3 := by
  funext i
  obtain ⟨a, b, d, q, c, rfl⟩ : ∃ a b d q c, i = ix5 a b d q c := ⟨i 0, i 1, i 2, i 3, i 4, eq_ix5 i⟩
  rw [unflatten5_apply _ h7 a b d q c]
  show mask (blkCm _ (flat a b d)) (blkQm _ (flat a b d)) c q = mask (rowsCm X2 a b d) (rowsQm X3 a b d) c q
  rw [blkCm_flatten, blkQm_flatten]

end Results

end Cert.Flatten

end
-- ==== Proof.KernelRun.lean ====
/-
  The idealized kernel's run, read: each of its four results as the attention function of its four arguments.

  Before the region the program flattens the three leading axes of each argument (the masks gain a unit axis);
  the region computes the attention functions block by block over the flattened arrays; after the region the program
  gives each output its three leading axes back.  Flattening, computing block by block and unflattening is computing
  block by block over the arguments as given.
-/
import proofs.«123773_j1580547972585_1_alg».proof.Proof.KernelRegion
import proofs.«123773_j1580547972585_1_alg».proof.Proof.Flatten
import Idealize.ShloMosaic.Lib.StableHlo.Run

set_option maxRecDepth 16384

noncomputable section

namespace Cert.KernelRun

open Cert.KernelIdeal Cert.KernelIdeal.Gen Idealize.ShloMosaic Idealize.ShloMosaic.TcCoe Idealize.SL.Sem
open Idealize.ShloMosaic.StableHlo Cert.Attention

variable (m : (ℓ : Loc nD τ sig) → Buf (Elt Ideal) ℓ) (ρ : Dev nD → PrngReg)

/-! ## What the region finds: the arguments flattened -/

theorem entry_main_v0 (c : Dev nD) :
    (V m c main_v0 : S512x256x512.Idx → EReal) = shapeCast S512x256x512 (m ((c.tc : Thread nD τ).loc main_arg0)) shapeCasts_S16x4x8x256x512_S512x256x512 := by
  show StableHlo.after hostOps0 (fun b => m (c, b)) (Proc.devRef .tc main_v0) = _
  after_results
  rfl

theorem entry_main_v1 (c : Dev nD) :
    (V m c main_v1 : S512x128x512.Idx → EReal) = shapeCast S512x128x512 (m ((c.tc : Thread nD τ).loc main_arg1)) shapeCasts_S16x4x8x128x512_S512x128x512 := by
  show StableHlo.after hostOps0 (fun b => m (c, b)) (Proc.devRef .tc main_v1) = _
  after_results
  rfl

theorem entry_main_v2 (c : Dev nD) :
    (V m c main_v2 : S512x256x1.Idx → EReal) = shapeCast S512x256x1 (m ((c.tc : Thread nD τ).loc main_arg2)) shapeCasts_S16x4x8x256_S512x256x1 := by
  show StableHlo.after hostOps0 (fun b => m (c, b)) (Proc.devRef .tc main_v2) = _
  after_results
  rfl

theorem entry_main_v3 (c : Dev nD) :
    (V m c main_v3 : S512x1x128.Idx → EReal) = shapeCast S512x1x128 (m ((c.tc : Thread nD τ).loc main_arg3)) shapeCasts_S16x4x8x128_S512x1x128 := by
  show StableHlo.after hostOps0 (fun b => m (c, b)) (Proc.devRef .tc main_v3) = _
  after_results
  rfl

/-! ## What the program returns: the region's arrays unflattened -/

theorem tail_main_v5 (c : Dev nD) :
    Pipeline.afterTail₀ cfgs (dats m) 0 (V0 m) [hostOps1] c main_v5
      = shapeCast S16x4x8x256x512 ((dats m 0 c).arrAt 4 cfg0.N) shapeCasts_S512x256x512_S16x4x8x256x512 := by
  unfold Pipeline.afterTail₀
  show StableHlo.after hostOps1 _ (Proc.devRef .tc main_v5) = _
  after_results
  funext i
  show shapeCast _ (Pipeline.withArrays spec0 c (V0 m c) (fun w => (dats m 0 c).arrAt w cfg0.N)
    (Proc.devRef .tc (Pipeline.arrRef spec0 4))) _ i = _
  rw [Pipeline.withArrays_arr spec0 launch0.win.arr_inj c (V0 m c) (fun w => (dats m 0 c).arrAt w cfg0.N) 4]
  rfl

theorem result_main_v5 (c : Dev nD) :
    Pipeline.afterTail₀ cfgs (dats m) 0 (V0 m) [hostOps1] c main_v5 = GattendC (m ((c.tc : Thread nD τ).loc main_arg0)) (m ((c.tc : Thread nD τ).loc main_arg1)) (m ((c.tc : Thread nD τ).loc main_arg2)) (m ((c.tc : Thread nD τ).loc main_arg3)) := by
  rw [tail_main_v5, KernelRegion.final4, entry_main_v0, entry_main_v1, entry_main_v2, entry_main_v3]
  exact Flatten.attendC_unflatten _ _ _ _ _ _ _ _ _

theorem tail_main_v6 (c : Dev nD) :
    Pipeline.afterTail₀ cfgs (dats m) 0 (V0 m) [hostOps1] c main_v6
      = shapeCast S16x4x8x128x512 ((dats m 0 c).arrAt 5 cfg0.N) shapeCasts_S512x128x512_S16x4x8x128x512 := by
  unfold Pipeline.afterTail₀
  show StableHlo.after hostOps1 _ (Proc.devRef .tc main_v6) = _
  after_results
  funext i
  show shapeCast _ (Pipeline.withArrays spec0 c (V0 m c) (fun w => (dats m 0 c).arrAt w cfg0.N)
    (Proc.devRef .tc (Pipeline.arrRef spec0 5))) _ i = _
  rw [Pipeline.withArrays_arr spec0 launch0.win.arr_inj c (V0 m c) (fun w => (dats m 0 c).arrAt w cfg0.N) 5]
  rfl

theorem result_main_v6 (c : Dev nD) :
    Pipeline.afterTail₀ cfgs (dats m) 0 (V0 m) [hostOps1] c main_v6 = GattendQ (m ((c.tc : Thread nD τ).loc main_arg0)) (m ((c.tc : Thread nD τ).loc main_arg1)) (m ((c.tc : Thread nD τ).loc main_arg2)) (m ((c.tc : Thread nD τ).loc main_arg3)) := by
  rw [tail_main_v6, KernelRegion.final5, entry_main_v0, entry_main_v1, entry_main_v2, entry_main_v3]
  exact Flatten.attendQ_unflatten _ _ _ _ _ _ _ _ _

theorem tail_main_v7 (c : Dev nD) :
    Pipeline.afterTail₀ cfgs (dats m) 0 (V0 m) [hostOps1] c main_v7
      = shapeCast S16x4x8x256x128 ((dats m 0 c).arrAt 6 cfg0.N) shapeCasts_S512x256x128_S16x4x8x256x128 := by
  unfold Pipeline.afterTail₀
  show StableHlo.after hostOps1 _ (Proc.devRef .tc main_v7) = _
  after_results
  funext i
  show shapeCast _ (Pipeline.withArrays spec0 c (V0 m c) (fun w => (dats m 0 c).arrAt w cfg0.N)
    (Proc.devRef .tc (Pipeline.arrRef spec0 6))) _ i = _
  rw [Pipeline.withArrays_arr spec0 launch0.win.arr_inj c (V0 m c) (fun w => (dats m 0 c).arrAt w cfg0.N) 6]
  rfl

theorem result_main_v7 (c : Dev nD) :
    Pipeline.afterTail₀ cfgs (dats m) 0 (V0 m) [hostOps1] c main_v7 = Gmask (m ((c.tc : Thread nD τ).loc main_arg2)) (m ((c.tc : Thread nD τ).loc main_arg3)) := by
  rw [tail_main_v7, KernelRegion.final6, entry_main_v2, entry_main_v3]
  exact Flatten.mask_unflatten _ _ _ _ _

theorem tail_main_v8 (c : Dev nD) :
    Pipeline.afterTail₀ cfgs (dats m) 0 (V0 m) [hostOps1] c main_v8
      = shapeCast S16x4x8x128x256 ((dats m 0 c).arrAt 7 cfg0.N) shapeCasts_S512x128x256_S16x4x8x128x256 := by
  unfold Pipeline.afterTail₀
  show StableHlo.after hostOps1 _ (Proc.devRef .tc main_v8) = _
  after_results
  funext i
  show shapeCast _ (Pipeline.withArrays spec0 c (V0 m c) (fun w => (dats m 0 c).arrAt w cfg0.N)
    (Proc.devRef .tc (Pipeline.arrRef spec0 7))) _ i = _
  rw [Pipeline.withArrays_arr spec0 launch0.win.arr_inj c (V0 m c) (fun w => (dats m 0 c).arrAt w cfg0.N) 7]
  rfl

theorem result_main_v8 (c : Dev nD) :
    Pipeline.afterTail₀ cfgs (dats m) 0 (V0 m) [hostOps1] c main_v8 = GmaskT (m ((c.tc : Thread nD τ).loc main_arg2)) (m ((c.tc : Thread nD τ).loc main_arg3)) := by
  rw [tail_main_v8, KernelRegion.final7, entry_main_v2, entry_main_v3]
  exact Flatten.maskT_unflatten _ _ _ _ _

/-! ## The run -/

/-- Every weakly fair execution of the idealized kernel terminates with its four results at the attention functions of
    its four arguments, and the arguments unchanged. -/
theorem run : θ_run defs (onTc (τ := τ) (main (F := Ideal))) ⟨m, fun _ => 0, ρ⟩ (fun r => ∀ c : Dev nD,
      r.2.mem ((c.tc : Thread nD τ).loc main_v5) = GattendC (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = GattendQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v7) = Gmask (m ((c.tc : Thread nD τ).loc main_arg2)) (m ((c.tc : Thread nD τ).loc main_arg3))
      ∧ r.2.mem ((c.tc : Thread nD τ).loc main_v8) = GmaskT (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (result_main_v5 m c),
      ((h c).2 main_v6 (Pipeline.mem_restRefs_of main_v6 (by decide) (by decide))).trans (result_main_v6 m c),
      ((h c).2 main_v7 (Pipeline.mem_restRefs_of main_v7 (by decide) (by decide))).trans (result_main_v7 m c),
      ((h c).2 main_v8 (Pipeline.mem_restRefs_of main_v8 (by decide) (by decide))).trans (result_main_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelRun

end
-- ==== Proof.RefMask.lean ====
/-
  The reference's mask product, entry by entry: the context mask at the row times the query mask at the column.
-/
import proofs.«123773_j1580547972585_1_alg».proof.Proof.Gen.ReferenceIdeal.Read
import proofs.«123773_j1580547972585_1_alg».proof.Proof.Attention
import Idealize.ShloMosaic.PureOps.Reduce

noncomputable section

namespace Cert.RefMask

open Idealize.ShloMosaic Idealize.ShloMosaic.ValueIdx Cert.ReferenceIdeal Cert.ReferenceIdeal.Read Cert.Attention

/-- The mask product at block `(a, b, d)`, context row `c`, query row `q`. -/
theorem v20_at (x2 : (⟨S16x4x8x256, .f32⟩ : BufTy).Contents (Elt Ideal)) (x3 : (⟨S16x4x8x128, .f32⟩ : BufTy).Contents (Elt Ideal))
    (a : Fin 16) (b : Fin 4) (d : Fin 8) (c : Fin 256) (q : Fin 128) :
    val_main_v20 (F := Ideal) x2 x3 (ix5 a b d c q) = mask (rowsCm x2 a b d) (rowsQm x3 a b d) c q := by
  rw [val_main_v20_apply, val_main_v18_apply, val_main_v16_apply, val_main_v19_apply, val_main_v17_apply]
  have e2 : idx_main_v16 (idx_main_v18 (ix5 a b d c q)) = ix4 a b d c :=
    funext fun j => Fin.ext (by match j with | ⟨0, _⟩ => rfl | ⟨1, _⟩ => rfl | ⟨2, _⟩ => rfl | ⟨3, _⟩ => rfl)
  have e3 : idx_main_v17 (idx_main_v19 (ix5 a b d c q)) = ix4 a b d q :=
    funext fun j => Fin.ext (by match j with | ⟨0, _⟩ => rfl | ⟨1, _⟩ => rfl | ⟨2, _⟩ => rfl | ⟨3, _⟩ => rfl)
  rw [e2, e3]
  rfl

end Cert.RefMask

end
-- ==== Proof.RefUnit.lean ====
/-
  The reference's normalised rows, entry by entry: each row of an argument divided by its floored Euclidean norm.
-/
import proofs.«123773_j1580547972585_1_alg».proof.Proof.Gen.ReferenceIdeal.Read
import proofs.«123773_j1580547972585_1_alg».proof.Proof.Attention
import Idealize.ShloMosaic.PureOps.Reduce

noncomputable section

namespace Cert.RefUnit

open Idealize.ShloMosaic Idealize.ShloMosaic.ValueIdx Cert.ReferenceIdeal Cert.ReferenceIdeal.Read Cert.Attention

/-- The normalised context array at block `(a, b, d)`, row `c`, column `h`. -/
theorem v7_at (x0 : (⟨S16x4x8x256x512, .f32⟩ : BufTy).Contents (Elt Ideal))
    (a : Fin 16) (b : Fin 4) (d : Fin 8) (c : Fin 256) (h : Fin 512) :
    val_main_v7 (F := Ideal) x0 (ix5 a b d c h) = unit (rowsC x0 a b d c) h := by
  rw [val_main_v7_apply, val_main_v6_apply, val_main_v5_apply, val_main_v3_apply, val_main_v2_apply, val_main_v1_apply,
    val_main_v4_apply, val_main_cst_0_apply, val_main_cst_apply]
  have e : ∀ k : Fin 512, idx_main_v1 (idx_main_v2 (idx_main_v6 (ix5 a b d c h))) k = ix5 a b d c k := fun k =>
    funext fun j => Fin.ext (by match j with | ⟨0, _⟩ => rfl | ⟨1, _⟩ => rfl | ⟨2, _⟩ => rfl | ⟨3, _⟩ => rfl | ⟨4, _⟩ => rfl)
  simp only [e, val_main_v0_apply, Ideal.hostDivf_def, Ideal.maximumf_def, Ideal.hostUnary_sqrt_def, Ideal.ofBits_def,
    Ideal.mulf_def, Ideal.ofBits_zero_f32, zero_add]
  rfl

/-- The normalised query array at block `(a, b, d)`, row `q`, column `h`. -/
theorem v15_at (x1 : (⟨S16x4x8x128x512, .f32⟩ : BufTy).Contents (Elt Ideal))
    (a : Fin 16) (b : Fin 4) (d : Fin 8) (q : Fin 128) (h : Fin 512) :
    val_main_v15 (F := Ideal) x1 (ix5 a b d q h) = unit (rowsQ x1 a b d q) h := by
  rw [val_main_v15_apply, val_main_v14_apply, val_main_v13_apply, val_main_v11_apply, val_main_v10_apply, val_main_v9_apply,
    val_main_v12_apply, val_main_cst_2_apply, val_main_cst_1_apply]
  have e : ∀ k : Fin 512, idx_main_v9 (idx_main_v10 (idx_main_v14 (ix5 a b d q h))) k = ix5 a b d q k := fun k =>
    funext fun j => Fin.ext (by match j with | ⟨0, _⟩ => rfl | ⟨1, _⟩ => rfl | ⟨2, _⟩ => rfl | ⟨3, _⟩ => rfl | ⟨4, _⟩ => rfl)
  simp only [e, val_main_v8_apply, Ideal.hostDivf_def, Ideal.maximumf_def, Ideal.hostUnary_sqrt_def, Ideal.ofBits_def,
    Ideal.mulf_def, Ideal.ofBits_zero_f32, zero_add]
  rfl

end Cert.RefUnit

end
-- ==== Proof.RefLogit.lean ====
/-
  The reference's logits, entry by entry: the scaled, masked inner product of a normalised context row and a
  normalised query row.  The reference multiplies by the scale twice (once for each softmax); both products are the
  same logit.
-/
import proofs.«123773_j1580547972585_1_alg».proof.Proof.RefMask
import proofs.«123773_j1580547972585_1_alg».proof.Proof.RefUnit
import Idealize.ShloMosaic.PureOps.Reduce

noncomputable section

namespace Cert.RefLogit

open Idealize.ShloMosaic Idealize.ShloMosaic.ValueIdx Cert.ReferenceIdeal Cert.ReferenceIdeal.Read Cert.Attention

/-- The masked inner product, before the scale, at block `(a, b, d)`, context row `c`, query row `q`. -/
theorem v26_at (x0 : (⟨S16x4x8x256x512, .f32⟩ : BufTy).Contents (Elt Ideal)) (x1 : (⟨S16x4x8x128x512, .f32⟩ : BufTy).Contents (Elt Ideal))
    (x2 : (⟨S16x4x8x256, .f32⟩ : BufTy).Contents (Elt Ideal)) (x3 : (⟨S16x4x8x128, .f32⟩ : BufTy).Contents (Elt Ideal))
    (a : Fin 16) (b : Fin 4) (d : Fin 8) (c : Fin 256) (q : Fin 128) :
    val_main_v26 (F := Ideal) x0 x1 x2 x3 (ix5 a b d c q)
      = (∑ h, unit (rowsC x0 a b d c) h * unit (rowsQ x1 a b d q) h)
          - bigW * (oneW - mask (rowsCm x2 a b d) (rowsQm x3 a b d) c q) := by
  rw [val_main_v26_apply, val_main_v21_apply, val_main_v25_apply, val_main_v24_apply, val_main_cst_4_apply,
    val_main_v23_apply, val_main_v22_apply, val_main_cst_3_apply, RefMask.v20_at]
  have el : ∀ k : Fin 512, lidx_main_v21 (ix5 a b d c q) k = ix5 a b d c k := fun k =>
    funext fun j => Fin.ext (by match j with | ⟨0, _⟩ => rfl | ⟨1, _⟩ => rfl | ⟨2, _⟩ => rfl | ⟨3, _⟩ => rfl | ⟨4, _⟩ => rfl)
  have er : ∀ k : Fin 512, ridx_main_v21 (ix5 a b d c q) k = ix5 a b d q k := fun k =>
    funext fun j => Fin.ext (by match j with | ⟨0, _⟩ => rfl | ⟨1, _⟩ => rfl | ⟨2, _⟩ => rfl | ⟨3, _⟩ => rfl | ⟨4, _⟩ => rfl)
  simp only [el, er, RefUnit.v7_at, RefUnit.v15_at, Ideal.subf_def, Ideal.mulf_def, Ideal.ofBits_def]

/-- The logit the softmax along the query axis reads. -/
theorem v28_at (x0 : (⟨S16x4x8x256x512, .f32⟩ : BufTy).Contents (Elt Ideal)) (x1 : (⟨S16x4x8x128x512, .f32⟩ : BufTy).Contents (Elt Ideal))
    (x2 : (⟨S16x4x8x256, .f32⟩ : BufTy).Contents (Elt Ideal)) (x3 : (⟨S16x4x8x128, .f32⟩ : BufTy).Contents (Elt Ideal))
    (a : Fin 16) (b : Fin 4) (d : Fin 8) (c : Fin 256) (q : Fin 128) :
    val_main_v28 (F := Ideal) x0 x1 x2 x3 (ix5 a b d c q)
      = logit (rowsC x0 a b d) (rowsQ x1 a b d) (rowsCm x2 a b d) (rowsQm x3 a b d) c q := by
  rw [val_main_v28_apply, val_main_v27_apply, val_main_cst_5_apply, v26_at]
  rfl

/-- The logit the softmax along the context axis reads. -/
theorem v42_at (x0 : (⟨S16x4x8x256x512, .f32⟩ : BufTy).Contents (Elt Ideal)) (x1 : (⟨S16x4x8x128x512, .f32⟩ : BufTy).Contents (Elt Ideal))
    (x2 : (⟨S16x4x8x256, .f32⟩ : BufTy).Contents (Elt Ideal)) (x3 : (⟨S16x4x8x128, .f32⟩ : BufTy).Contents (Elt Ideal))
    (a : Fin 16) (b : Fin 4) (d : Fin 8) (c : Fin 256) (q : Fin 128) :
    val_main_v42 (F := Ideal) x0 x1 x2 x3 (ix5 a b d c q)
      = logit (rowsC x0 a b d) (rowsQ x1 a b d) (rowsCm x2 a b d) (rowsQm x3 a b d) c q := by
  rw [val_main_v42_apply, val_main_v41_apply, val_main_cst_9_apply, v26_at]
  rfl

end Cert.RefLogit

end
-- ==== Proof.RefWeightC.lean ====
/-
  The reference's masked softmax along the query axis, entry by entry.  The reference takes the row maximum as a
  fold of `max` from the bottom word and then once more the maximum with that word, which changes nothing: a fold of
  `max` is at least the value it starts from.
-/
import proofs.«123773_j1580547972585_1_alg».proof.Proof.RefLogit
import Idealize.ShloMosaic.PureOps.Reduce

noncomputable section

namespace Cert.RefWeightC

open Idealize.ShloMosaic Idealize.ShloMosaic.ValueIdx Cert.ReferenceIdeal Cert.ReferenceIdeal.Read Cert.Attention

/-- The maximum with the word a fold of `max` starts from is the fold. -/
theorem max_fold_self {n : ℕ} (w : EReal) (f : Fin n → EReal) :
    max w ((Finset.univ : Finset (Fin n)).fold max w f) = (Finset.univ : Finset (Fin n)).fold max w f :=
  max_eq_right ((Finset.le_fold_max w).mpr (Or.inl le_rfl))

/-- The row maximum of the logits of context row `c`. -/
theorem v31_at (x0 : (⟨S16x4x8x256x512, .f32⟩ : BufTy).Contents (Elt Ideal)) (x1 : (⟨S16x4x8x128x512, .f32⟩ : BufTy).Contents (Elt Ideal))
    (x2 : (⟨S16x4x8x256, .f32⟩ : BufTy).Contents (Elt Ideal)) (x3 : (⟨S16x4x8x128, .f32⟩ : BufTy).Contents (Elt Ideal))
    (a : Fin 16) (b : Fin 4) (d : Fin 8) (c : Fin 256) :
    val_main_v31 (F := Ideal) x0 x1 x2 x3 (ix4 a b d c) = top (fun q' => logit (rowsC x0 a b d) (rowsQ x1 a b d) (rowsCm x2 a b d) (rowsQm x3 a b d) c q') := by
  rw [val_main_v31_apply, val_main_v30_apply, val_main_cst_7_apply]
  unfold val_main_v29
  have hr : S16x4x8x256x128.Reduces [4] S16x4x8x256 := by decide
  rw [Host.reduce_eq_fold_single FloatOps.maximumf _ _ _ hr]
  have hf : (val_main_v28 (F := Ideal) x0 x1 x2 x3 ∘ hr.lift (ix4 a b d c)) = fun q' : Fin 128 => logit (rowsC x0 a b d) (rowsQ x1 a b d) (rowsCm x2 a b d) (rowsQm x3 a b d) c q' :=
    funext fun k => by
      have e : hr.lift (ix4 a b d c) k = ix5 a b d c (⟨k.val, k.isLt⟩ : Fin 128) :=
        funext fun j => Fin.ext (by match j with | ⟨0, _⟩ => rfl | ⟨1, _⟩ => rfl | ⟨2, _⟩ => rfl | ⟨3, _⟩ => rfl | ⟨4, _⟩ => rfl)
      show val_main_v28 (F := Ideal) x0 x1 x2 x3 (hr.lift (ix4 a b d c) k) = _
      rw [e, RefLogit.v28_at]
      rfl
  rw [hf, val_main_cst_6_apply]
  exact max_fold_self _ _

/-- The shifted exponential of a logit. -/
theorem v35_at (x0 : (⟨S16x4x8x256x512, .f32⟩ : BufTy).Contents (Elt Ideal)) (x1 : (⟨S16x4x8x128x512, .f32⟩ : BufTy).Contents (Elt Ideal))
    (x2 : (⟨S16x4x8x256, .f32⟩ : BufTy).Contents (Elt Ideal)) (x3 : (⟨S16x4x8x128, .f32⟩ : BufTy).Contents (Elt Ideal))
    (a : Fin 16) (b : Fin 4) (d : Fin 8) (c : Fin 256) (q : Fin 128) :
    val_main_v35 (F := Ideal) x0 x1 x2 x3 (ix5 a b d c q)
      = Ideal.exp (logit (rowsC x0 a b d) (rowsQ x1 a b d) (rowsCm x2 a b d) (rowsQm x3 a b d) c q - top (fun q' => logit (rowsC x0 a b d) (rowsQ x1 a b d) (rowsCm x2 a b d) (rowsQm x3 a b d) c q')) := by
  rw [val_main_v35_apply, val_main_v34_apply, val_main_v33_apply, val_main_v32_apply, RefLogit.v28_at]
  have e : idx_main_v32 (idx_main_v33 (ix5 a b d c q)) = ix4 a b d c :=
    funext fun j => Fin.ext (by match j with | ⟨0, _⟩ => rfl | ⟨1, _⟩ => rfl | ⟨2, _⟩ => rfl | ⟨3, _⟩ => rfl)
  rw [e, v31_at]
  rfl

/-- The masked softmax along the query axis. -/
theorem v40_at (x0 : (⟨S16x4x8x256x512, .f32⟩ : BufTy).Contents (Elt Ideal)) (x1 : (⟨S16x4x8x128x512, .f32⟩ : BufTy).Contents (Elt Ideal))
    (x2 : (⟨S16x4x8x256, .f32⟩ : BufTy).Contents (Elt Ideal)) (x3 : (⟨S16x4x8x128, .f32⟩ : BufTy).Contents (Elt Ideal))
    (a : Fin 16) (b : Fin 4) (d : Fin 8) (c : Fin 256) (q : Fin 128) :
    val_main_v40 (F := Ideal) x0 x1 x2 x3 (ix5 a b d c q)
      = weightC (rowsC x0 a b d) (rowsQ x1 a b d) (rowsCm x2 a b d) (rowsQm x3 a b d) c q := by
  rw [val_main_v40_apply, val_main_v39_apply, val_main_v38_apply, val_main_v37_apply, val_main_v36_apply,
    val_main_cst_8_apply, RefMask.v20_at, v35_at]
  have e : idx_main_v37 (idx_main_v38 (ix5 a b d c q)) = ix4 a b d c :=
    funext fun j => Fin.ext (by match j with | ⟨0, _⟩ => rfl | ⟨1, _⟩ => rfl | ⟨2, _⟩ => rfl | ⟨3, _⟩ => rfl)
  have ek : ∀ k : Fin 128, idx_main_v36 (ix4 a b d c) k = ix5 a b d c k := fun k =>
    funext fun j => Fin.ext (by match j with | ⟨0, _⟩ => rfl | ⟨1, _⟩ => rfl | ⟨2, _⟩ => rfl | ⟨3, _⟩ => rfl | ⟨4, _⟩ => rfl)
  rw [e]
  simp only [ek, v35_at, Ideal.hostDivf_def, Ideal.mulf_def, Ideal.ofBits_def, Ideal.ofBits_zero_f32, zero_add]
  rfl

end Cert.RefWeightC

end
-- ==== Proof.RefWeightQ.lean ====
/-
  The reference's masked softmax along the context axis, entry by entry; as along the query axis, the extra maximum
  with the bottom word changes nothing.
-/
import proofs.«123773_j1580547972585_1_alg».proof.Proof.RefWeightC
import Idealize.ShloMosaic.PureOps.Reduce

noncomputable section

namespace Cert.RefWeightQ

open Idealize.ShloMosaic Idealize.ShloMosaic.ValueIdx Cert.ReferenceIdeal Cert.ReferenceIdeal.Read Cert.Attention

/-- The column maximum of the logits of query row `q`. -/
theorem v45_at (x0 : (⟨S16x4x8x256x512, .f32⟩ : BufTy).Contents (Elt Ideal)) (x1 : (⟨S16x4x8x128x512, .f32⟩ : BufTy).Contents (Elt Ideal))
    (x2 : (⟨S16x4x8x256, .f32⟩ : BufTy).Contents (Elt Ideal)) (x3 : (⟨S16x4x8x128, .f32⟩ : BufTy).Contents (Elt Ideal))
    (a : Fin 16) (b : Fin 4) (d : Fin 8) (q : Fin 128) :
    val_main_v45 (F := Ideal) x0 x1 x2 x3 (ix4 a b d q) = top (fun c' => logit (rowsC x0 a b d) (rowsQ x1 a b d) (rowsCm x2 a b d) (rowsQm x3 a b d) c' q) := by
  rw [val_main_v45_apply, val_main_v44_apply, val_main_cst_11_apply]
  unfold val_main_v43
  have hr : S16x4x8x256x128.Reduces [3] S16x4x8x128 := by decide
  rw [Host.reduce_eq_fold_single FloatOps.maximumf _ _ _ hr]
  have hf : (val_main_v42 (F := Ideal) x0 x1 x2 x3 ∘ hr.lift (ix4 a b d q)) = fun c' : Fin 256 => logit (rowsC x0 a b d) (rowsQ x1 a b d) (rowsCm x2 a b d) (rowsQm x3 a b d) c' q :=
    funext fun k => by
      have e : hr.lift (ix4 a b d q) k = ix5 a b d (⟨k.val, k.isLt⟩ : Fin 256) q :=
        funext fun j => Fin.ext (by match j with | ⟨0, _⟩ => rfl | ⟨1, _⟩ => rfl | ⟨2, _⟩ => rfl | ⟨3, _⟩ => rfl | ⟨4, _⟩ => rfl)
      show val_main_v42 (F := Ideal) x0 x1 x2 x3 (hr.lift (ix4 a b d q) k) = _
      rw [e, RefLogit.v42_at]
      rfl
  rw [hf, val_main_cst_10_apply]
  exact RefWeightC.max_fold_self _ _

/-- The shifted exponential of a logit. -/
theorem v49_at (x0 : (⟨S16x4x8x256x512, .f32⟩ : BufTy).Contents (Elt Ideal)) (x1 : (⟨S16x4x8x128x512, .f32⟩ : BufTy).Contents (Elt Ideal))
    (x2 : (⟨S16x4x8x256, .f32⟩ : BufTy).Contents (Elt Ideal)) (x3 : (⟨S16x4x8x128, .f32⟩ : BufTy).Contents (Elt Ideal))
    (a : Fin 16) (b : Fin 4) (d : Fin 8) (c : Fin 256) (q : Fin 128) :
    val_main_v49 (F := Ideal) x0 x1 x2 x3 (ix5 a b d c q)
      = Ideal.exp (logit (rowsC x0 a b d) (rowsQ x1 a b d) (rowsCm x2 a b d) (rowsQm x3 a b d) c q - top (fun c' => logit (rowsC x0 a b d) (rowsQ x1 a b d) (rowsCm x2 a b d) (rowsQm x3 a b d) c' q)) := by
  rw [val_main_v49_apply, val_main_v48_apply, val_main_v47_apply, val_main_v46_apply, RefLogit.v42_at]
  have e : idx_main_v46 (idx_main_v47 (ix5 a b d c q)) = ix4 a b d q :=
    funext fun j => Fin.ext (by match j with | ⟨0, _⟩ => rfl | ⟨1, _⟩ => rfl | ⟨2, _⟩ => rfl | ⟨3, _⟩ => rfl)
  rw [e, v45_at]
  rfl

/-- The masked softmax along the context axis. -/
theorem v54_at (x0 : (⟨S16x4x8x256x512, .f32⟩ : BufTy).Contents (Elt Ideal)) (x1 : (⟨S16x4x8x128x512, .f32⟩ : BufTy).Contents (Elt Ideal))
    (x2 : (⟨S16x4x8x256, .f32⟩ : BufTy).Contents (Elt Ideal)) (x3 : (⟨S16x4x8x128, .f32⟩ : BufTy).Contents (Elt Ideal))
    (a : Fin 16) (b : Fin 4) (d : Fin 8) (c : Fin 256) (q : Fin 128) :
    val_main_v54 (F := Ideal) x0 x1 x2 x3 (ix5 a b d c q)
      = weightQ (rowsC x0 a b d) (rowsQ x1 a b d) (rowsCm x2 a b d) (rowsQm x3 a b d) c q := by
  rw [val_main_v54_apply, val_main_v53_apply, val_main_v52_apply, val_main_v51_apply, val_main_v50_apply,
    val_main_cst_12_apply, RefMask.v20_at, v49_at]
  have e : idx_main_v51 (idx_main_v52 (ix5 a b d c q)) = ix4 a b d q :=
    funext fun j => Fin.ext (by match j with | ⟨0, _⟩ => rfl | ⟨1, _⟩ => rfl | ⟨2, _⟩ => rfl | ⟨3, _⟩ => rfl)
  have ek : ∀ k : Fin 256, idx_main_v50 (ix4 a b d q) k = ix5 a b d k q := fun k =>
    funext fun j => Fin.ext (by match j with | ⟨0, _⟩ => rfl | ⟨1, _⟩ => rfl | ⟨2, _⟩ => rfl | ⟨3, _⟩ => rfl | ⟨4, _⟩ => rfl)
  rw [e]
  simp only [ek, v49_at, Ideal.hostDivf_def, Ideal.mulf_def, Ideal.ofBits_def, Ideal.ofBits_zero_f32, zero_add]
  rfl

end Cert.RefWeightQ

end
-- ==== Proof.RefAttention.lean ====
/-
  The reference's four results, entry by entry, are the attention block of the matching block of its arguments.
-/
import proofs.«123773_j1580547972585_1_alg».proof.Proof.Gen.ReferenceIdeal.Read
import proofs.«123773_j1580547972585_1_alg».proof.Proof.Attention
import proofs.«123773_j1580547972585_1_alg».proof.Proof.RefWeightQ

noncomputable section

namespace Cert.RefAttention

open Idealize.ShloMosaic Idealize.ShloMosaic.ValueIdx Cert.ReferenceIdeal Cert.ReferenceIdeal.Read Cert.Attention

theorem attendC_eq (x0 : (⟨S16x4x8x256x512, .f32⟩ : BufTy).Contents (Elt Ideal)) (x1 : (⟨S16x4x8x128x512, .f32⟩ : BufTy).Contents (Elt Ideal))
    (x2 : (⟨S16x4x8x256, .f32⟩ : BufTy).Contents (Elt Ideal)) (x3 : (⟨S16x4x8x128, .f32⟩ : BufTy).Contents (Elt Ideal)) :
    val_main_v55 (F := Ideal) x0 x1 x2 x3 = GattendC x0 x1 x2 x3 := by
  funext i
  obtain ⟨a, b, d, c, h, rfl⟩ : ∃ (a : Fin 16) (b : Fin 4) (d : Fin 8) (c : Fin 256) (h : Fin 512), i = ix5 a b d c h :=
    ⟨i 0, i 1, i 2, i 3, i 4, eq_ix5 i⟩
  rw [val_main_v55_apply]
  have el : ∀ k : Fin 128, lidx_main_v55 (ix5 a b d c h) k = ix5 a b d c k := fun k =>
    funext fun j => Fin.ext (by match j with | ⟨0, _⟩ => rfl | ⟨1, _⟩ => rfl | ⟨2, _⟩ => rfl | ⟨3, _⟩ => rfl | ⟨4, _⟩ => rfl)
  have er : ∀ k : Fin 128, ridx_main_v55 (ix5 a b d c h) k = ix5 a b d k h := fun k =>
    funext fun j => Fin.ext (by match j with | ⟨0, _⟩ => rfl | ⟨1, _⟩ => rfl | ⟨2, _⟩ => rfl | ⟨3, _⟩ => rfl | ⟨4, _⟩ => rfl)
  simp only [el, er, RefWeightC.v40_at]
  rfl

theorem attendQ_eq (x0 : (⟨S16x4x8x256x512, .f32⟩ : BufTy).Contents (Elt Ideal)) (x1 : (⟨S16x4x8x128x512, .f32⟩ : BufTy).Contents (Elt Ideal))
    (x2 : (⟨S16x4x8x256, .f32⟩ : BufTy).Contents (Elt Ideal)) (x3 : (⟨S16x4x8x128, .f32⟩ : BufTy).Contents (Elt Ideal)) :
    val_main_v56 (F := Ideal) x0 x1 x2 x3 = GattendQ x0 x1 x2 x3 := by
  funext i
  obtain ⟨a, b, d, q, h, rfl⟩ : ∃ (a : Fin 16) (b : Fin 4) (d : Fin 8) (q : Fin 128) (h : Fin 512), i = ix5 a b d q h :=
    ⟨i 0, i 1, i 2, i 3, i 4, eq_ix5 i⟩
  rw [val_main_v56_apply]
  have el : ∀ k : Fin 256, lidx_main_v56 (ix5 a b d q h) k = ix5 a b d k q := fun k =>
    funext fun j => Fin.ext (by match j with | ⟨0, _⟩ => rfl | ⟨1, _⟩ => rfl | ⟨2, _⟩ => rfl | ⟨3, _⟩ => rfl | ⟨4, _⟩ => rfl)
  have er : ∀ k : Fin 256, ridx_main_v56 (ix5 a b d q h) k = ix5 a b d k h := fun k =>
    funext fun j => Fin.ext (by match j with | ⟨0, _⟩ => rfl | ⟨1, _⟩ => rfl | ⟨2, _⟩ => rfl | ⟨3, _⟩ => rfl | ⟨4, _⟩ => rfl)
  simp only [el, er, RefWeightQ.v54_at]
  rfl

theorem mask_eq (x2 : (⟨S16x4x8x256, .f32⟩ : BufTy).Contents (Elt Ideal)) (x3 : (⟨S16x4x8x128, .f32⟩ : BufTy).Contents (Elt Ideal)) :
    val_main_v20 (F := Ideal) x2 x3 = Gmask x2 x3 := by
  funext i
  obtain ⟨a, b, d, c, q, rfl⟩ : ∃ (a : Fin 16) (b : Fin 4) (d : Fin 8) (c : Fin 256) (q : Fin 128), i = ix5 a b d c q :=
    ⟨i 0, i 1, i 2, i 3, i 4, eq_ix5 i⟩
  rw [RefMask.v20_at]
  rfl

theorem maskT_eq (x2 : (⟨S16x4x8x256, .f32⟩ : BufTy).Contents (Elt Ideal)) (x3 : (⟨S16x4x8x128, .f32⟩ : BufTy).Contents (Elt Ideal)) :
    val_main_v57 (F := Ideal) x2 x3 = GmaskT x2 x3 := by
  funext i
  obtain ⟨a, b, d, q, c, rfl⟩ : ∃ (a : Fin 16) (b : Fin 4) (d : Fin 8) (q : Fin 128) (c : Fin 256), i = ix5 a b d q c :=
    ⟨i 0, i 1, i 2, i 3, i 4, eq_ix5 i⟩
  rw [val_main_v57_apply]
  have e : idx_main_v57 (ix5 a b d q c) = ix5 a b d c q :=
    funext fun j => Fin.ext (by match j with | ⟨0, _⟩ => rfl | ⟨1, _⟩ => rfl | ⟨2, _⟩ => rfl | ⟨3, _⟩ => rfl | ⟨4, _⟩ => rfl)
  rw [e, RefMask.v20_at]
  rfl

end Cert.RefAttention

end
-- ==== Proof.lean ====
/-
  A Pallas attention kernel against its jnp reference, over the extended reals.

  Each of the 16 × 4 × 8 = 512 attention blocks has 256 context rows and 128 query rows of 512 reals and a mask per
  row.  Both programs divide every row by its floored Euclidean norm, take the inner products of context rows with
  query rows, lower the masked pairs by a large constant, scale, normalise by a softmax along the query axis and,
  separately, along the context axis, multiply by the mask product, and with the two weightings average the query rows
  (per context row) and the context rows (per query row); the mask product and its transpose are returned as well
  (Proof/Attention.lean states these functions once).

  The kernel flattens the three leading axes, visits the 512 blocks four at a time, and unflattens its four outputs;
  the reference works on the arrays as given.  On the extended reals the two agree entry by entry: a change of float
  format is the identity, a matrix product into a zero accumulator and the host's contraction are the same finite
  sum, a row maximum is the same fold of `max` whichever program takes it (the reference's further maximum with the
  fold's own starting word changes nothing), and flattening followed by unflattening moves no entry.  No entry's value
  is ever computed and no law that fails at an infinity is used, so the finiteness of the inputs is not needed for the
  equality.

  The three frames: the two kernels' are generated; the reference's is its generated run with the results dropped.
  The idealization rewrote no operation, so there is nothing to preserve.
-/
import proofs.«123773_j1580547972585_1_alg».proof.Defs
import proofs.«123773_j1580547972585_1_alg».proof.Proof.Gen.Kernel
import proofs.«123773_j1580547972585_1_alg».proof.Proof.Gen.Kernel.Skeleton
import proofs.«123773_j1580547972585_1_alg».proof.Proof.Gen.Kernel.Launch
import proofs.«123773_j1580547972585_1_alg».proof.Proof.Gen.Kernel.Points
import proofs.«123773_j1580547972585_1_alg».proof.Proof.Gen.Kernel.Frame
import proofs.«123773_j1580547972585_1_alg».proof.Proof.Gen.KernelIdeal
import proofs.«123773_j1580547972585_1_alg».proof.Proof.Gen.KernelIdeal.Skeleton
import proofs.«123773_j1580547972585_1_alg».proof.Proof.Gen.KernelIdeal.Launch
import proofs.«123773_j1580547972585_1_alg».proof.Proof.Gen.KernelIdeal.Points
import proofs.«123773_j1580547972585_1_alg».proof.Proof.Gen.KernelIdeal.Frame
import proofs.«123773_j1580547972585_1_alg».proof.Proof.Gen.ReferenceIdeal
import proofs.«123773_j1580547972585_1_alg».proof.Proof.Gen.Pre_finite_inputs
import proofs.«123773_j1580547972585_1_alg».proof.Proof.Gen.ReferenceIdeal.Run
import proofs.«123773_j1580547972585_1_alg».proof.Proof.Gen.ReferenceIdeal.Read
import proofs.«123773_j1580547972585_1_alg».proof.Proof.KernelRun
import proofs.«123773_j1580547972585_1_alg».proof.Proof.RefAttention
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the results dropped. -/
theorem frame_referenceIdeal : Cert.frame_ReferenceIdeal := fun m ρ _ =>
  (θ_run Cert.ReferenceIdeal.defs _ _).mono (fun _ h c => (h c).2.2.2.2)
    (Cert.ReferenceIdeal.Value.run (F := Ideal) m ρ)

/-- The idealization rewrote nothing. -/
theorem preserves : Cert.preserves_Kernel_KernelIdeal := trivial

/-- From memories agreeing on the four arguments both programs end with their four results at the attention functions
    of those arguments. -/
theorem algebraic : Cert.algebraic_KernelIdeal_ReferenceIdeal := by
  intro m ρ m' ρ' _ hagree
  refine ⟨_, _, _, _, Cert.KernelRun.run m ρ, ?_⟩
  refine (θ_run Cert.ReferenceIdeal.defs _ _).mono (fun _ h c => ?_)
    (Cert.ReferenceIdeal.Value.run (F := Ideal) m' ρ')
  obtain ⟨h0, h1, h2, h3, hargs⟩ := h c
  obtain ⟨e0, e1, e2, e3⟩ := hagree c
  refine ⟨?_, ?_, ?_, ?_, hargs⟩
  · rw [h0, Cert.ReferenceIdeal.Read.val_main_v55_eq, Cert.RefAttention.attendC_eq, e0, e1, e2, e3]
  · rw [h1, Cert.ReferenceIdeal.Read.val_main_v56_eq, Cert.RefAttention.attendQ_eq, e0, e1, e2, e3]
  · rw [h2, Cert.ReferenceIdeal.Read.val_main_v20_eq, Cert.RefAttention.mask_eq, e2, e3]
  · rw [h3, Cert.ReferenceIdeal.Read.val_main_v57_eq, Cert.RefAttention.maskT_eq, e2, e3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
